-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : FVec F S11008x4096 .f32) (main_arg2 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S11008x4096 : Shape := ⟨2, ![11008, 4096]⟩
abbrev S11008 : Shape := ⟨1, ![11008]⟩
abbrev S8192x4096 : Shape := ⟨2, ![8192, 4096]⟩
abbrev S_ : Shape := ⟨0, ![]⟩
abbrev S1x1 : Shape := ⟨2, ![1, 1]⟩
abbrev S8192x1 : Shape := ⟨2, ![8192, 1]⟩
abbrev S256x4096 : Shape := ⟨2, ![256, 4096]⟩
abbrev S256x1 : Shape := ⟨2, ![256, 1]⟩
abbrev S256 : Shape := ⟨1, ![256]⟩
abbrev S11008x1 : Shape := ⟨2, ![11008, 1]⟩
abbrev S1x11008 : Shape := ⟨2, ![1, 11008]⟩
abbrev S8192x11008 : Shape := ⟨2, ![8192, 11008]⟩
abbrev S1024x4096 : Shape := ⟨2, ![1024, 4096]⟩
abbrev S1024x1 : Shape := ⟨2, ![1024, 1]⟩
abbrev S1x256 : Shape := ⟨2, ![1, 256]⟩
abbrev S1024x256 : Shape := ⟨2, ![1024, 256]⟩
abbrev S4x2048x11008 : Shape := ⟨3, ![4, 2048, 11008]⟩

abbrev nBuf : Space → Nat
  | .hbm => 78
  | .vmem => 27
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008, .f32⟩
  | .hbm, ⟨3, _⟩ => ⟨S8192x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S1x1, .f32⟩
  | .hbm, ⟨51, _⟩ => ⟨S1x1, .f32⟩
  | .hbm, ⟨52, _⟩ => ⟨S8192x4096, .bf16⟩
  | .hbm, ⟨53, _⟩ => ⟨S8192x1, .f32⟩
  | .hbm, ⟨54, _⟩ => ⟨S1x1, .f32⟩
  | .hbm, ⟨55, _⟩ => ⟨S1x1, .f32⟩
  | .hbm, ⟨56, _⟩ => ⟨S11008x4096, .bf16⟩
  | .hbm, ⟨57, _⟩ => ⟨S11008x1, .f32⟩
  | .hbm, ⟨58, _⟩ => ⟨S1x11008, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S1x11008, .f32⟩
  | .hbm, ⟨65, _⟩ => ⟨S_, .f32⟩
  | .hbm, ⟨66, _⟩ => ⟨S1x11008, .f32⟩
  | .hbm, ⟨67, _⟩ => ⟨S1x11008, .f32⟩
  | .hbm, ⟨68, _⟩ => ⟨S1x11008, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S1x11008, .f32⟩
  | .hbm, ⟨74, _⟩ => ⟨S1x11008, .f32⟩
  | .hbm, ⟨75, _⟩ => ⟨S1x1, .f32⟩
  | .hbm, ⟨76, _⟩ => ⟨S8192x11008, .f32⟩
  | .hbm, ⟨77, _⟩ => ⟨S4x2048x11008, .f32⟩
  | .local _ .vmem, ⟨0, _⟩ => ⟨S1x1, .f32⟩
  | .local _ .vmem, ⟨1, _⟩ => ⟨S1x1, .f32⟩
  | .local _ .vmem, ⟨2, _⟩ => ⟨S256x4096, .f32⟩
  | .local _ .vmem, ⟨3, _⟩ => ⟨S256x4096, .f32⟩
  | .local _ .vmem, ⟨4, _⟩ => ⟨S256x4096, .bf16⟩
  | .local _ .vmem, ⟨5, _⟩ => ⟨S256x4096, .bf16⟩
  | .local _ .vmem, ⟨6, _⟩ => ⟨S256x1, .f32⟩
  | .local _ .vmem, ⟨7, _⟩ => ⟨S256x1, .f32⟩
  | .local _ .vmem, ⟨8, _⟩ => ⟨S1x1, .f32⟩
  | .local _ .vmem, ⟨9, _⟩ => ⟨S1x1, .f32⟩
  | .local _ .vmem, ⟨10, _⟩ => ⟨S256x4096, .f32⟩
  | .local _ .vmem, ⟨11, _⟩ => ⟨S256x4096, .f32⟩
  | .local _ .vmem, ⟨12, _⟩ => ⟨S256x4096, .bf16⟩
  | .local _ .vmem, ⟨13, _⟩ => ⟨S256x4096, .bf16⟩
  | .local _ .vmem, ⟨14, _⟩ => ⟨S256x1, .f32⟩
  | .local _ .vmem, ⟨15, _⟩ => ⟨S256x1, .f32⟩
  | .local _ .vmem, ⟨16, _⟩ => ⟨S1x1, .f32⟩
  | .local _ .vmem, ⟨17, _⟩ => ⟨S1024x4096, .bf16⟩
  | .local _ .vmem, ⟨18, _⟩ => ⟨S1024x4096, .bf16⟩
  | .local _ .vmem, ⟨19, _⟩ => ⟨S256x4096, .bf16⟩
  | .local _ .vmem, ⟨20, _⟩ => ⟨S256x4096, .bf16⟩
  | .local _ .vmem, ⟨21, _⟩ => ⟨S1024x1, .f32⟩
  | .local _ .vmem, ⟨22, _⟩ => ⟨S1024x1, .f32⟩
  | .local _ .vmem, ⟨23, _⟩ => ⟨S1x256, .f32⟩
  | .local _ .vmem, ⟨24, _⟩ => ⟨S1x256, .f32⟩
  | .local _ .vmem, ⟨25, _⟩ => ⟨S1024x256, .f32⟩
  | .local _ .vmem, ⟨26, _⟩ => ⟨S1024x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_cst_3 : Ref sig .tc := ⟨.hbm, 13, rfl⟩
abbrev main_v6 : Ref sig .tc := ⟨.hbm, 14, rfl⟩
abbrev main_cst_4 : Ref sig .tc := ⟨.hbm, 15, rfl⟩
abbrev main_v7 : Ref sig .tc := ⟨.hbm, 16, rfl⟩
abbrev main_v8 : Ref sig .tc := ⟨.hbm, 17, rfl⟩
abbrev main_cst_5 : Ref sig .tc := ⟨.hbm, 18, rfl⟩
abbrev main_v9 : Ref sig .tc := ⟨.hbm, 19, rfl⟩
abbrev main_v10 : Ref sig .tc := ⟨.hbm, 20, rfl⟩
abbrev main_cst_6 : Ref sig .tc := ⟨.hbm, 21, rfl⟩
abbrev main_cst_7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v11 : Ref sig .tc := ⟨.hbm, 26, rfl⟩
abbrev main_cst_8 : Ref sig .tc := ⟨.hbm, 27, rfl⟩
abbrev main_v12 : Ref sig .tc := ⟨.hbm, 28, rfl⟩
abbrev main_cst_9 : Ref sig .tc := ⟨.hbm, 29, rfl⟩
abbrev main_v13 : Ref sig .tc := ⟨.hbm, 30, rfl⟩
abbrev main_cst_10 : Ref sig .tc := ⟨.hbm, 31, rfl⟩
abbrev main_v14 : Ref sig .tc := ⟨.hbm, 32, rfl⟩
abbrev main_cst_11 : Ref sig .tc := ⟨.hbm, 33, rfl⟩
abbrev main_v15 : Ref sig .tc := ⟨.hbm, 34, rfl⟩
abbrev main_v16 : Ref sig .tc := ⟨.hbm, 35, rfl⟩
abbrev main_cst_12 : Ref sig .tc := ⟨.hbm, 36, rfl⟩
abbrev main_v17 : Ref sig .tc := ⟨.hbm, 37, rfl⟩
abbrev main_cst_13 : Ref sig .tc := ⟨.hbm, 38, rfl⟩
abbrev main_v18 : Ref sig .tc := ⟨.hbm, 39, rfl⟩
abbrev main_v19 : Ref sig .tc := ⟨.hbm, 40, rfl⟩
abbrev main_cst_14 : Ref sig .tc := ⟨.hbm, 41, rfl⟩
abbrev main_v20 : Ref sig .tc := ⟨.hbm, 42, rfl⟩
abbrev main_v21 : Ref sig .tc := ⟨.hbm, 43, rfl⟩
abbrev main_cst_15 : Ref sig .tc := ⟨.hbm, 44, rfl⟩
abbrev main_cst_16 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25_0 : Ref sig .tc := ⟨.hbm, 52, rfl⟩
abbrev main_v25_1 : Ref sig .tc := ⟨.hbm, 53, rfl⟩
abbrev main_v26 : Ref sig .tc := ⟨.hbm, 54, rfl⟩
abbrev main_v27 : Ref sig .tc := ⟨.hbm, 55, rfl⟩
abbrev main_v28_0 : Ref sig .tc := ⟨.hbm, 56, rfl⟩
abbrev main_v28_1 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_17 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![43], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![8, 43], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1024x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S256x4096 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S1024x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  shapeCasts_S4x2048x4096_S8192x4096 : S4x2048x4096.ShapeCasts S8192x4096
  reducesTo_S8192x4096_S_d0_1 : S8192x4096.ReducesTo [0, 1] S_
  h_S_ : 0 < S_.numel
  reducesTo_S11008x4096_S_d0_1 : S11008x4096.ReducesTo [0, 1] S_
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S11008x1_S1x11008 : S11008x1.ShapeCasts S1x11008
  bcast_S_S8192x1 : S_.BroadcastsInDim S8192x1 (![] : Fin 0 → Fin S8192x1.rank)
  shapeCasts_S11008_S1x11008 : S11008.ShapeCasts S1x11008
  bcast_S_S1x11008 : S_.BroadcastsInDim S1x11008 (![] : Fin 0 → Fin S1x11008.rank)
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S8192x11008_S4x2048x11008 : S8192x11008.ShapeCasts S4x2048x11008
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S8192x4096.size a
  hwx0_2 : ∀ i : grid0.Coords, EltTy.bits .f32 = 32 ∨ (Rect.block (s := S8192x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x4096.size a
  hwx0_3 : ∀ i : grid0.Coords, EltTy.bits .bf16 = 32 ∨ (Rect.block (s := S8192x4096) S256x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S8192x1.size a
  hwx0_4 : ∀ i : grid0.Coords, EltTy.bits .f32 = 32 ∨ (Rect.block (s := S8192x1) S256x1.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1.size a ≤ S1x1.size a
  hwx1_0 : ∀ i : grid1.Coords, EltTy.bits .f32 = 32 ∨ (Rect.block (s := S1x1) S1x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S11008x4096.size a
  hwx1_2 : ∀ i : grid1.Coords, EltTy.bits .f32 = 32 ∨ (Rect.block (s := S11008x4096) S256x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S11008x4096.size a
  hwx1_3 : ∀ i : grid1.Coords, EltTy.bits .bf16 = 32 ∨ (Rect.block (s := S11008x4096) S256x4096.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1.size a ≤ S11008x1.size a
  hwx1_4 : ∀ i : grid1.Coords, EltTy.bits .f32 = 32 ∨ (Rect.block (s := S11008x1) S256x1.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x1.size a ≤ S1x1.size a
  hwx2_0 : ∀ i : grid2.Coords, EltTy.bits .f32 = 32 ∨ (Rect.block (s := S1x1) S1x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x4096.size a ≤ S8192x4096.size a
  hwx2_1 : ∀ i : grid2.Coords, EltTy.bits .bf16 = 32 ∨ (Rect.block (s := S8192x4096) S1024x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x4096.size a ≤ S11008x4096.size a
  hwx2_2 : ∀ i : grid2.Coords, EltTy.bits .bf16 = 32 ∨ (Rect.block (s := S11008x4096) S256x4096.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1.size a ≤ S8192x1.size a
  hwx2_3 : ∀ i : grid2.Coords, EltTy.bits .f32 = 32 ∨ (Rect.block (s := S8192x1) S1024x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x11008.size a
  hwx2_4 : ∀ i : grid2.Coords, EltTy.bits .f32 = 32 ∨ (Rect.block (s := S1x11008) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x256.size a ≤ S8192x11008.size a
  hwx2_5 : ∀ i : grid2.Coords, EltTy.bits .f32 = 32 ∨ (Rect.block (s := S8192x11008) S1024x256.size (cc2_transform_5 i) (hinb2_5 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_v23) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v24) S1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25_0) S256x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25_1) S256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v26) S1x1.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S256x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28_0) S256x4096.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v28_1) S256x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v45) S1x1.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v25_0) S1024x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28_0) S256x4096.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v34) S1024x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x256.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v46) S1024x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008 : Shape := ⟨1, ![11008]⟩
abbrev S8192x4096 : Shape := ⟨2, ![8192, 4096]⟩
abbrev S_ : Shape := ⟨0, ![]⟩
abbrev S8192x11008 : Shape := ⟨2, ![8192, 11008]⟩
abbrev S8192 : Shape := ⟨1, ![8192]⟩
abbrev S8192x1 : Shape := ⟨2, ![8192, 1]⟩
abbrev S1x11008 : Shape := ⟨2, ![1, 11008]⟩
abbrev S4x2048x11008 : Shape := ⟨3, ![4, 2048, 11008]⟩

abbrev nBuf : Space → Nat
  | .hbm => 103
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008, .f32⟩
  | .hbm, ⟨3, _⟩ => ⟨S8192x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S8192x4096, .f32⟩
  | .hbm, ⟨36, _⟩ => ⟨S8192x4096, .f32⟩
  | .hbm, ⟨37, _⟩ => ⟨S_, .f32⟩
  | .hbm, ⟨38, _⟩ => ⟨S8192x4096, .f32⟩
  | .hbm, ⟨39, _⟩ => ⟨S8192x4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S11008x4096, .f32⟩
  | .hbm, ⟨64, _⟩ => ⟨S11008x4096, .f32⟩
  | .hbm, ⟨65, _⟩ => ⟨S11008x4096, .f32⟩
  | .hbm, ⟨66, _⟩ => ⟨S11008x4096, .f32⟩
  | .hbm, ⟨67, _⟩ => ⟨S11008x4096, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S11008x4096, .f32⟩
  | .hbm, ⟨72, _⟩ => ⟨S11008x4096, .f32⟩
  | .hbm, ⟨73, _⟩ => ⟨S_, .f32⟩
  | .hbm, ⟨74, _⟩ => ⟨S11008x4096, .f32⟩
  | .hbm, ⟨75, _⟩ => ⟨S11008x4096, .f32⟩
  | .hbm, ⟨76, _⟩ => ⟨S8192x11008, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S_, .f32⟩
  | .hbm, ⟨81, _⟩ => ⟨S11008, .f32⟩
  | .hbm, ⟨82, _⟩ => ⟨S_, .f32⟩
  | .hbm, ⟨83, _⟩ => ⟨S1x11008, .f32⟩
  | .hbm, ⟨84, _⟩ => ⟨S1x11008, .f32⟩
  | .hbm, ⟨85, _⟩ => ⟨S1x11008, .f32⟩
  | .hbm, ⟨86, _⟩ => ⟨S8192x11008, .f32⟩
  | .hbm, ⟨87, _⟩ => ⟨S8192x11008, .f32⟩
  | .hbm, ⟨88, _⟩ => ⟨S8192x1, .f32⟩
  | .hbm, ⟨89, _⟩ => ⟨S8192x1, .f32⟩
  | .hbm, ⟨90, _⟩ => ⟨S8192x11008, .f32⟩
  | .hbm, ⟨91, _⟩ => ⟨S8192x11008, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S8192x11008, .f32⟩
  | .hbm, ⟨96, _⟩ => ⟨S8192x11008, .f32⟩
  | .hbm, ⟨97, _⟩ => ⟨S8192x11008, .f32⟩
  | .hbm, ⟨98, _⟩ => ⟨S8192x11008, .f32⟩
  | .hbm, ⟨99, _⟩ => ⟨S1x11008, .f32⟩
  | .hbm, ⟨100, _⟩ => ⟨S8192x11008, .f32⟩
  | .hbm, ⟨101, _⟩ => ⟨S8192x11008, .f32⟩
  | .hbm, ⟨102, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_cst_3 : Ref sig .tc := ⟨.hbm, 13, rfl⟩
abbrev main_v6 : Ref sig .tc := ⟨.hbm, 14, rfl⟩
abbrev main_cst_4 : Ref sig .tc := ⟨.hbm, 15, rfl⟩
abbrev main_v7 : Ref sig .tc := ⟨.hbm, 16, rfl⟩
abbrev main_v8 : Ref sig .tc := ⟨.hbm, 17, rfl⟩
abbrev main_cst_5 : Ref sig .tc := ⟨.hbm, 18, rfl⟩
abbrev main_v9 : Ref sig .tc := ⟨.hbm, 19, rfl⟩
abbrev main_v10 : Ref sig .tc := ⟨.hbm, 20, rfl⟩
abbrev main_cst_6 : Ref sig .tc := ⟨.hbm, 21, rfl⟩
abbrev main_cst_7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_8 : Ref sig .tc := ⟨.hbm, 32, rfl⟩
abbrev main_cst_9 : Ref sig .tc := ⟨.hbm, 33, rfl⟩
abbrev main_call3_v0 : Ref sig .tc := ⟨.hbm, 34, rfl⟩
abbrev main_call3_v1 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_v17 : Ref sig .tc := ⟨.hbm, 39, rfl⟩
abbrev main_cst_10 : Ref sig .tc := ⟨.hbm, 40, rfl⟩
abbrev main_v18 : Ref sig .tc := ⟨.hbm, 41, rfl⟩
abbrev main_cst_11 : Ref sig .tc := ⟨.hbm, 42, rfl⟩
abbrev main_v19 : Ref sig .tc := ⟨.hbm, 43, rfl⟩
abbrev main_cst_12 : Ref sig .tc := ⟨.hbm, 44, rfl⟩
abbrev main_v20 : Ref sig .tc := ⟨.hbm, 45, rfl⟩
abbrev main_cst_13 : Ref sig .tc := ⟨.hbm, 46, rfl⟩
abbrev main_v21 : Ref sig .tc := ⟨.hbm, 47, rfl⟩
abbrev main_v22 : Ref sig .tc := ⟨.hbm, 48, rfl⟩
abbrev main_cst_14 : Ref sig .tc := ⟨.hbm, 49, rfl⟩
abbrev main_v23 : Ref sig .tc := ⟨.hbm, 50, rfl⟩
abbrev main_cst_15 : Ref sig .tc := ⟨.hbm, 51, rfl⟩
abbrev main_v24 : Ref sig .tc := ⟨.hbm, 52, rfl⟩
abbrev main_v25 : Ref sig .tc := ⟨.hbm, 53, rfl⟩
abbrev main_cst_16 : Ref sig .tc := ⟨.hbm, 54, rfl⟩
abbrev main_v26 : Ref sig .tc := ⟨.hbm, 55, rfl⟩
abbrev main_v27 : Ref sig .tc := ⟨.hbm, 56, rfl⟩
abbrev main_cst_17 : Ref sig .tc := ⟨.hbm, 57, rfl⟩
abbrev main_cst_18 : Ref sig .tc := ⟨.hbm, 58, rfl⟩
abbrev main_call5_v0 : Ref sig .tc := ⟨.hbm, 59, rfl⟩
abbrev main_call5_v1 : Ref sig .tc := ⟨.hbm, 60, rfl⟩
abbrev main_call5_v2 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_19 : Ref sig .tc := ⟨.hbm, 68, rfl⟩
abbrev main_cst_20 : Ref sig .tc := ⟨.hbm, 69, rfl⟩
abbrev main_call7_v0 : Ref sig .tc := ⟨.hbm, 70, rfl⟩
abbrev main_call7_v1 : Ref sig .tc := ⟨.hbm, 71, rfl⟩
abbrev main_call7_v2 : Ref sig .tc := ⟨.hbm, 72, rfl⟩
abbrev main_call7_v3 : Ref sig .tc := ⟨.hbm, 73, rfl⟩
abbrev main_call7_v4 : Ref sig .tc := ⟨.hbm, 74, rfl⟩
abbrev main_v34 : Ref sig .tc := ⟨.hbm, 75, rfl⟩
abbrev main_v35 : Ref sig .tc := ⟨.hbm, 76, rfl⟩
abbrev main_cst_21 : Ref sig .tc := ⟨.hbm, 77, rfl⟩
abbrev main_v36 : Ref sig .tc := ⟨.hbm, 78, rfl⟩
abbrev main_v37 : Ref sig .tc := ⟨.hbm, 79, rfl⟩
abbrev main_cst_22 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_cst_23 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩

abbrev nD : Nat := 1
abbrev τ : Topo := Topo.v7x

variable {F : FTy → Type} [FloatOps F]

class Facts₀ : Prop where
  shapeCasts_S4x2048x4096_S8192x4096 : S4x2048x4096.ShapeCasts S8192x4096
  reducesTo_S8192x4096_S_d0_1 : S8192x4096.ReducesTo [0, 1] S_
  h_S_ : 0 < S_.numel
  bcast_S_S8192x4096 : S_.BroadcastsInDim S8192x4096 (![] : Fin 0 → Fin S8192x4096.rank)
  reducesTo_S11008x4096_S_d0_1 : S11008x4096.ReducesTo [0, 1] S_
  bcast_S_S11008x4096 : S_.BroadcastsInDim S11008x4096 (![] : Fin 0 → Fin S11008x4096.rank)
  reducesTo_S8192x4096_S8192_d1 : S8192x4096.ReducesTo [1] S8192
  bcast_S8192_S8192x1_0 : S8192.BroadcastsInDim S8192x1 (![0] : Fin 1 → Fin S8192x1.rank)
  reducesTo_S11008x4096_S11008_d1 : S11008x4096.ReducesTo [1] S11008
  bcast_S11008_S1x11008_1 : S11008.BroadcastsInDim S1x11008 (![1] : Fin 1 → Fin S1x11008.rank)
  bcast_S_S1x11008 : S_.BroadcastsInDim S1x11008 (![] : Fin 0 → Fin S1x11008.rank)
  bcast_S1x11008_S8192x11008_0_1 : S1x11008.BroadcastsInDim S8192x11008 (![0, 1] : Fin 2 → Fin S8192x11008.rank)
  bcast_S_S8192x1 : S_.BroadcastsInDim S8192x1 (![] : Fin 0 → Fin S8192x1.rank)
  bcast_S8192x1_S8192x11008_0_1 : S8192x1.BroadcastsInDim S8192x11008 (![0, 1] : Fin 2 → Fin S8192x11008.rank)
  bcast_S_S8192x11008 : S_.BroadcastsInDim S8192x11008 (![] : Fin 0 → Fin S8192x11008.rank)
  shapeCasts_S8192x11008_S4x2048x11008 : S8192x11008.ShapeCasts S4x2048x11008
  dot_S8192x4096_S11008x4096_S8192x11008_1_1_0_0_n_n_wf : DotDims.WF S8192x4096 S11008x4096 S8192x11008 [1] [1] [0] [0] [] []

variable [Facts₀]

def dot_S8192x4096_S11008x4096_S8192x11008_1_1_0_0_n_n : DotDims S8192x4096 S11008x4096 S8192x11008 where
  lhsContracting := [1]
  rhsContracting := [1]
  lhsNonContracting := [0]
  rhsNonContracting := [0]
  lhsBatch := []
  rhsBatch := []
  wf := dot_S8192x4096_S11008x4096_S8192x11008_1_1_0_0_n_n_wf

class Facts : Prop extends Facts₀ where

variable [Facts]
-- ==== Proof.KernelRun.lean ====
/-
  The kernel program's run with its result named: every weakly fair execution of the three regions and the host
  operations around them ends with the result buffer holding what the last host stretch (one reshape) leaves of the
  product region's output array, the arguments unchanged. The run itself is the library's launch of a list of
  segments — a host segment per stretch of host operations from the contents at its boundary, a region per kernel launch —
  read at the last boundary's contents.
-/
import proofs.«111236_j59219009077631_2_alg».proof.Proof.Gen.KernelIdeal.Frame

set_option maxRecDepth 16384

noncomputable section

namespace Cert.Bridge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read at the last boundary's contents. -/
theorem run_result : θ_run defs (onTc (τ := τ) (main (F := F))) ⟨m, fun _ => 0, ρ⟩ (fun r => ∀ c : Dev nD,
      r.2.mem ((c.tc : Thread nD τ).loc main_v47) = W15 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v47 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c)⟩)

end Cert.Bridge

end
-- ==== Proof.Payload.lean ====
/-
  What the three kernel bodies compute, entry by entry, over the extended reals.

  A quantizing body takes a block of 256 rows of 4096 entries, a scale and a zero point, and leaves
  (a) every entry quantized: divided by the scale, rounded to the nearest integer (ties to even), shifted by the zero
  point and clamped to [-128, 127]; (b) the sum of each row's quantized entries.
  The product body takes 1024 quantized rows of the activations, 256 quantized rows of the weights, a scale, one correction
  per activation row and one per weight row, and leaves scale · ⟨row p, row q⟩ + rowCorrection p + columnCorrection q.
-/
import proofs.«111236_j59219009077631_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx Cert.KernelIdeal Cert.KernelIdeal.Gen

/-- One entry quantized: x / s rounded half to even, plus the zero point z, clamped below by -128 and above by 127
    (the two bounds kept as the words the programs print). -/
def quant (s z x : EReal) : EReal :=
  min (Ideal.ofBits .f32 0x42FE0000#32)
    (max (Ideal.ofBits .f32 0xC3000000#32) (Ideal.liftRound Ideal.roundHalfEven (Ideal.div x s) + z))

/-- The single entry of a 1×1 block. -/
theorem extract00 {α : Type} (v : S1x1.Idx → α) : extractAt ![0, 0] v inpos_S1x1_p0_0 = v (ix2 0 0) :=
  congrArg v (funext fun a => Fin.ext (by match a with | ⟨0, _⟩ => rfl | ⟨1, _⟩ => rfl))

/-- Region 0's clamped block, entry by entry. -/
theorem clamp0_apply (v0 v2 : Vec Ideal S1x1 .f32) (v4 : Vec Ideal S256x4096 .f32) (j : S256x4096.Idx) :
    k0_pay1 (F := Ideal) v0 v2 v4 j = quant (v0 (ix2 0 0)) (v2 (ix2 0 0)) (v4 j) := by
  unfold k0_pay1
  rw [shapeCast_self, extract00, extract00]
  rfl

/-- Region 1's clamped block, entry by entry. -/
theorem clamp1_apply (v0 v2 : Vec Ideal S1x1 .f32) (v4 : Vec Ideal S256x4096 .f32) (j : S256x4096.Idx) :
    k1_pay1 (F := Ideal) v0 v2 v4 j = quant (v0 (ix2 0 0)) (v2 (ix2 0 0)) (v4 j) := by
  unfold k1_pay1
  rw [extract00, extract00]
  rfl

/-- A sum along the 4096 entries of row r of a 256 × 4096 block, kept as a column. -/
theorem rowSum_apply (y : FVec Ideal S256x4096 .f32) (hacc : (0x00000000#32 : BitVec 32) = 0x00000000#32) (r : Fin 256) :
    shapeCast S256x1 (multiReduction .add [1] S256 y 0x00000000#32 reduces_S256x4096_S256 (.inl rfl) hacc) shapeCasts_S256_S256x1 (ix2 r 0)
      = ∑ k : Fin 4096, y (ix2 r k) := by
  refine (shapeCast_apply _ shapeCasts_S256_S256x1 (ix2 r 0) (ix1 r) ?_).trans ?_
  · rw [Shape.rowMajor_val_one, Shape.rowMajor_val_two]; show r.val = r.val * 1 + 0; omega
  · refine (Ideal.multiReduction_add_single y 0x00000000#32 reduces_S256x4096_S256 (.inl rfl) hacc (ix1 r)).trans ?_
    refine Finset.sum_congr rfl fun k _ => congrArg y ?_
    funext c; apply Fin.ext
    match c with
    | ⟨0, _⟩ => rfl
    | ⟨1, _⟩ => rfl

/-- Region 0's row sums: entry (r, 0) is the sum of row r's quantized entries. -/
theorem rowSum0_apply (v0 v2 : Vec Ideal S1x1 .f32) (v4 : Vec Ideal S256x4096 .f32) (r : Fin 256) :
    k0_pay2 (F := Ideal) v0 v2 v4 (ix2 r 0) = ∑ k : Fin 4096, quant (v0 (ix2 0 0)) (v2 (ix2 0 0)) (v4 (ix2 r k)) := by
  unfold k0_pay2
  refine (rowSum_apply _ rfl r).trans (Finset.sum_congr rfl fun k _ => clamp0_apply v0 v2 v4 _)

/-- Region 1's row sums. -/
theorem rowSum1_apply (v0 v2 : Vec Ideal S1x1 .f32) (v4 : Vec Ideal S256x4096 .f32) (r : Fin 256) :
    k1_pay2 (F := Ideal) v0 v2 v4 (ix2 r 0) = ∑ k : Fin 4096, quant (v0 (ix2 0 0)) (v2 (ix2 0 0)) (v4 (ix2 r k)) := by
  unfold k1_pay2
  refine (rowSum_apply _ rfl r).trans (Finset.sum_congr rfl fun k _ => clamp1_apply v0 v2 v4 _)

/-- The quantized block as stored (a change of float format is the identity on the extended reals). -/
theorem stored0_apply (v0 v2 : Vec Ideal S1x1 .f32) (v4 : Vec Ideal S256x4096 .f32) (j : S256x4096.Idx) :
    k0_pay3 (F := Ideal) v0 v2 v4 j = quant (v0 (ix2 0 0)) (v2 (ix2 0 0)) (v4 j) :=
  clamp0_apply v0 v2 v4 j

theorem stored1_apply (v0 v2 : Vec Ideal S1x1 .f32) (v4 : Vec Ideal S256x4096 .f32) (j : S256x4096.Idx) :
    k1_pay3 (F := Ideal) v0 v2 v4 j = quant (v0 (ix2 0 0)) (v2 (ix2 0 0)) (v4 j) :=
  clamp1_apply v0 v2 v4 j

end Cert.Bridge

end
-- ==== Proof.Region0.lean ====
/-
  Quantizing region 0: what its two output arrays hold once every grid point has written its block back.
  Point t handles rows 256·t … 256·t + 255 of the 8192 × 4096 operand; each row's quantized entries and their sum depend on that
  row only, so every written block is the restriction of one whole-array function, and the 32 blocks tile the arrays.
-/
import proofs.«111236_j59219009077631_2_alg».proof.Proof.Gen.KernelIdeal.Frame
import proofs.«111236_j59219009077631_2_alg».proof.Proof.Payload

set_option maxRecDepth 16384

noncomputable section

namespace Cert.Bridge.Region0

open Idealize.ShloMosaic Idealize.ShloMosaic.TcCoe Idealize.ShloMosaic.ValueIdx Idealize.SL.Sem Cert.KernelIdeal Cert.KernelIdeal.Gen Cert.Bridge
open Idealize.ShloMosaic.Pipeline (Dat)

variable (V : (c : Dev nD) → (b : Ref sig .tc) → Buf (Elt Ideal) ((c : Thread nD τ).loc b))

theorem zeroOff : (![0, 0] : Fin 2 → Nat) = fun _ => 0 := funext fun a => by fin_cases a <;> rfl

/-- Entry k of the row that a column index names. -/
abbrev rowEntry (i : S8192x1.Idx) (k : Fin 4096) : S8192x4096.Idx := ix2 (⟨(i 0).val, (i 0).isLt⟩ : Fin 8192) k

/-- Every entry quantized with the one scale and the one zero point. -/
def quantArr (a0 a1 : S1x1.Idx → EReal) (a2 : S8192x4096.Idx → EReal) : S8192x4096.Idx → EReal :=
  fun i => quant (a0 (ix2 0 0)) (a1 (ix2 0 0)) (a2 i)

/-- Each row's sum of quantized entries, as a column. -/
def rowSumArr (a0 a1 : S1x1.Idx → EReal) (a2 : S8192x4096.Idx → EReal) : S8192x1.Idx → EReal :=
  fun i => ∑ k : Fin 4096, quant (a0 (ix2 0 0)) (a1 (ix2 0 0)) (a2 (rowEntry i k))

/-- The printed index maps over the grid: the scalars' blocks never move, the three row-blocked windows sit at block row t. -/
theorem idxFacts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The scale's block is the scale's one entry. -/
theorem emb_scale (t : Fin cfg0.N) : ((cfg0.win 0).blk t).view.emb (ix2 (0 : Fin 1) (0 : Fin 1)) = ix2 (0 : Fin 1) (0 : Fin 1) := by
  obtain ⟨e0, e1, -⟩ := idxFacts t
  funext a; apply Fin.ext
  match a with
  | ⟨0, _⟩ => show win0_0.index t (0 : Fin 2) * 1 + 1 * 0 = 0; omega
  | ⟨1, _⟩ => show win0_0.index t (1 : Fin 2) * 1 + 1 * 0 = 0; omega

/-- The zero point's block is its one entry. -/
theorem emb_zp (t : Fin cfg0.N) : ((cfg0.win 1).blk t).view.emb (ix2 (0 : Fin 1) (0 : Fin 1)) = ix2 (0 : Fin 1) (0 : Fin 1) := by
  obtain ⟨-, -, e0, e1, -⟩ := idxFacts t
  funext a; apply Fin.ext
  match a with
  | ⟨0, _⟩ => show win0_1.index t (0 : Fin 2) * 1 + 1 * 0 = 0; omega
  | ⟨1, _⟩ => show win0_1.index t (1 : Fin 2) * 1 + 1 * 0 = 0; omega

/-- WHAT POINT t WRITES BACK through the quantized window: its block of the whole quantized array. -/
theorem flushedQ (c : Dev nD) (t : Fin cfg0.N) :
    (dat0 V c).flushed 3 t = ((cfg0.win 3).blk t).view.read (Elt Ideal) (quantArr (V c main_v23) (V c main_v24) (V c main_v0)) := by
  show (cfg0.win 3).cut (grid0.coords t) ((dat0 V c).after 3 t) = _
  rw [after0_3]
  unfold out0_3
  rw [View.canon_unit_zero zeroOff]
  simp only [View.ld_unit_zero (S := S1x1) zeroOff, View.ld_unit_zero (S := S256x4096) zeroOff]
  funext j
  refine (stored0_apply (iblk0 V c 0 t) (iblk0 V c 1 t) (iblk0 V c 2 t) j).trans ?_
  show quant (V c main_v23 (((cfg0.win 0).blk t).view.emb (ix2 (0 : Fin 1) (0 : Fin 1)))) (V c main_v24 (((cfg0.win 1).blk t).view.emb (ix2 (0 : Fin 1) (0 : Fin 1))))
      (V c main_v0 (((cfg0.win 2).blk t).view.emb j))
    = quant (V c main_v23 (ix2 0 0)) (V c main_v24 (ix2 0 0)) (V c main_v0 (((cfg0.win 3).blk t).view.emb j))
  rw [emb_scale, emb_zp]
  obtain ⟨-, -, -, -, e0, e1, e2, e3, -⟩ := idxFacts t
  have h2 : ((cfg0.win 2).blk t).view.emb j = ((cfg0.win 3).blk t).view.emb j := by
    funext a; apply Fin.ext
    match a with
    | ⟨0, _⟩ => show win0_2.index t (0 : Fin 2) * 256 + 1 * (j 0).val = win0_3.index t (0 : Fin 2) * 256 + 1 * (j 0).val; omega
    | ⟨1, _⟩ => show win0_2.index t (1 : Fin 2) * 4096 + 1 * (j 1).val = win0_3.index t (1 : Fin 2) * 4096 + 1 * (j 1).val; omega
  rw [h2]

/-- WHAT POINT t WRITES BACK through the row-sum window: its block of the whole column of row sums. -/
theorem flushedS (c : Dev nD) (t : Fin cfg0.N) :
    (dat0 V c).flushed 4 t = ((cfg0.win 4).blk t).view.read (Elt Ideal) (rowSumArr (V c main_v23) (V c main_v24) (V c main_v0)) := by
  show (cfg0.win 4).cut (grid0.coords t) ((dat0 V c).after 4 t) = _
  rw [after0_4]
  unfold out0_4
  rw [View.canon_unit_zero zeroOff]
  simp only [View.ld_unit_zero (S := S1x1) zeroOff, View.ld_unit_zero (S := S256x4096) zeroOff]
  funext j
  obtain ⟨r, rfl⟩ : ∃ r : Fin 256, j = ix2 r (0 : Fin 1) := ⟨⟨(j 0).val, (j 0).isLt⟩, funext fun a => Fin.ext (by
    match a with
    | ⟨0, _⟩ => rfl
    | ⟨1, _⟩ => have h : (j 1).val < 1 := (j 1).isLt; show (j 1).val = 0; omega)⟩
  refine (rowSum0_apply (iblk0 V c 0 t) (iblk0 V c 1 t) (iblk0 V c 2 t) r).trans ?_
  show ∑ k : Fin 4096, quant (V c main_v23 (((cfg0.win 0).blk t).view.emb (ix2 (0 : Fin 1) (0 : Fin 1)))) (V c main_v24 (((cfg0.win 1).blk t).view.emb (ix2 (0 : Fin 1) (0 : Fin 1))))
      (V c main_v0 (((cfg0.win 2).blk t).view.emb (ix2 r k)))
    = ∑ k : Fin 4096, quant (V c main_v23 (ix2 0 0)) (V c main_v24 (ix2 0 0)) (V c main_v0 (rowEntry (((cfg0.win 4).blk t).view.emb (ix2 r (0 : Fin 1))) k))
  rw [emb_scale, emb_zp]
  obtain ⟨-, -, -, -, e0, e1, -, -, e4, e5⟩ := idxFacts t
  refine Finset.sum_congr rfl fun k _ => ?_
  have h2 : ((cfg0.win 2).blk t).view.emb (ix2 r k) = rowEntry (((cfg0.win 4).blk t).view.emb (ix2 r (0 : Fin 1))) k := by
    funext a; apply Fin.ext
    match a with
    | ⟨0, _⟩ => show win0_2.index t (0 : Fin 2) * 256 + 1 * r.val = win0_4.index t (0 : Fin 2) * 256 + 1 * r.val; omega
    | ⟨1, _⟩ => show win0_2.index t (1 : Fin 2) * 4096 + 1 * k.val = k.val; omega
  rw [h2]

/-- An index of the quantized array is in point t's block iff each coordinate is in the block's range. -/
theorem memQ (t : Fin cfg0.N) (i : S8192x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v25_0).slice (win0_3.rect t)).set ↔ _
  rw [View.set_slice_whole, Rect.mem_set_unit]
  exact Iff.rfl

/-- An index of the row-sum column is in point t's block iff each coordinate is in the block's range. -/
theorem memS (t : Fin cfg0.N) (i : S8192x1.Idx) :
    i ∈ ((cfg0.win 4).blk t).view.set ↔ ∀ a : Fin 2, win0_4.index t a * S256x1.size a ≤ (i a).val ∧ (i a).val < win0_4.index t a * S256x1.size a + S256x1.size a := by
  show i ∈ ((View.whole main_v25_1).slice (win0_4.rect t)).set ↔ _
  rw [View.set_slice_whole, Rect.mem_set_unit]
  exact Iff.rfl

/-- Row r lies in the block of point r / 256. -/
theorem coverQ (i : S8192x4096.Idx) : ∃ t : Fin cfg0.N, (cfg0.win 3).flush t = true ∧ i ∈ ((cfg0.win 3).blk t).view.set := by
  have hN : cfg0.N = 32 := N_0
  have hi0 : (i 0).val < 8192 := (i 0).isLt
  have hi1 : (i 1).val < 4096 := (i 1).isLt
  obtain ⟨t, ht⟩ : ∃ t : Fin cfg0.N, t.val = (i 0).val / 256 := ⟨⟨(i 0).val / 256, by rw [hN]; omega⟩, rfl⟩
  refine ⟨t, flush0_3 t, ?_⟩
  rw [memQ]
  obtain ⟨-, -, -, -, -, -, e2, e3, -⟩ := idxFacts t
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 4096 ≤ (i 1).val ∧ (i 1).val < win0_3.index t (1 : Fin 2) * 4096 + 4096; omega

theorem coverS (i : S8192x1.Idx) : ∃ t : Fin cfg0.N, (cfg0.win 4).flush t = true ∧ i ∈ ((cfg0.win 4).blk t).view.set := by
  have hN : cfg0.N = 32 := N_0
  have hi0 : (i 0).val < 8192 := (i 0).isLt
  have hi1 : (i 1).val < 1 := (i 1).isLt
  obtain ⟨t, ht⟩ : ∃ t : Fin cfg0.N, t.val = (i 0).val / 256 := ⟨⟨(i 0).val / 256, by rw [hN]; omega⟩, rfl⟩
  refine ⟨t, flush0_4 t, ?_⟩
  rw [memS]
  obtain ⟨-, -, -, -, -, -, -, -, e4, e5⟩ := idxFacts t
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 1 ≤ (i 1).val ∧ (i 1).val < win0_4.index t (1 : Fin 2) * 1 + 1; omega

/-- THE QUANTIZED ARRAY after the region. -/
theorem finalQ (c : Dev nD) : (dat0 V c).arrAt 3 cfg0.N = quantArr (V c main_v23) (V c main_v24) (V c main_v0) :=
  (dat0 V c).arrAt_eq_of_cover 3 _ (fun t _ => flushedQ V c t) coverQ

/-- THE COLUMN OF ROW SUMS after the region. -/
theorem finalS (c : Dev nD) : (dat0 V c).arrAt 4 cfg0.N = rowSumArr (V c main_v23) (V c main_v24) (V c main_v0) :=
  (dat0 V c).arrAt_eq_of_cover 4 _ (fun t _ => flushedS V c t) coverS

end Cert.Bridge.Region0

end
-- ==== Proof.Region1.lean ====
/-
  Quantizing region 1: what its two output arrays hold once every grid point has written its block back.
  Point t handles rows 256·t … 256·t + 255 of the 11008 × 4096 operand; each row's quantized entries and their sum depend on that
  row only, so every written block is the restriction of one whole-array function, and the 43 blocks tile the arrays.
-/
import proofs.«111236_j59219009077631_2_alg».proof.Proof.Gen.KernelIdeal.Frame
import proofs.«111236_j59219009077631_2_alg».proof.Proof.Payload

set_option maxRecDepth 16384

noncomputable section

namespace Cert.Bridge.Region1

open Idealize.ShloMosaic Idealize.ShloMosaic.TcCoe Idealize.ShloMosaic.ValueIdx Idealize.SL.Sem Cert.KernelIdeal Cert.KernelIdeal.Gen Cert.Bridge
open Idealize.ShloMosaic.Pipeline (Dat)

variable (V : (c : Dev nD) → (b : Ref sig .tc) → Buf (Elt Ideal) ((c : Thread nD τ).loc b))

theorem zeroOff : (![0, 0] : Fin 2 → Nat) = fun _ => 0 := funext fun a => by fin_cases a <;> rfl

/-- Entry k of the row that a column index names. -/
abbrev rowEntry (i : S11008x1.Idx) (k : Fin 4096) : S11008x4096.Idx := ix2 (⟨(i 0).val, (i 0).isLt⟩ : Fin 11008) k

/-- Every entry quantized with the one scale and the one zero point. -/
def quantArr (a0 a1 : S1x1.Idx → EReal) (a2 : S11008x4096.Idx → EReal) : S11008x4096.Idx → EReal :=
  fun i => quant (a0 (ix2 0 0)) (a1 (ix2 0 0)) (a2 i)

/-- Each row's sum of quantized entries, as a column. -/
def rowSumArr (a0 a1 : S1x1.Idx → EReal) (a2 : S11008x4096.Idx → EReal) : S11008x1.Idx → EReal :=
  fun i => ∑ k : Fin 4096, quant (a0 (ix2 0 0)) (a1 (ix2 0 0)) (a2 (rowEntry i k))

/-- The printed index maps over the grid: the scalars' blocks never move, the three row-blocked windows sit at block row t. -/
theorem idxFacts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The scale's block is the scale's one entry. -/
theorem emb_scale (t : Fin cfg1.N) : ((cfg1.win 0).blk t).view.emb (ix2 (0 : Fin 1) (0 : Fin 1)) = ix2 (0 : Fin 1) (0 : Fin 1) := by
  obtain ⟨e0, e1, -⟩ := idxFacts t
  funext a; apply Fin.ext
  match a with
  | ⟨0, _⟩ => show win1_0.index t (0 : Fin 2) * 1 + 1 * 0 = 0; omega
  | ⟨1, _⟩ => show win1_0.index t (1 : Fin 2) * 1 + 1 * 0 = 0; omega

/-- The zero point's block is its one entry. -/
theorem emb_zp (t : Fin cfg1.N) : ((cfg1.win 1).blk t).view.emb (ix2 (0 : Fin 1) (0 : Fin 1)) = ix2 (0 : Fin 1) (0 : Fin 1) := by
  obtain ⟨-, -, e0, e1, -⟩ := idxFacts t
  funext a; apply Fin.ext
  match a with
  | ⟨0, _⟩ => show win1_1.index t (0 : Fin 2) * 1 + 1 * 0 = 0; omega
  | ⟨1, _⟩ => show win1_1.index t (1 : Fin 2) * 1 + 1 * 0 = 0; omega

/-- WHAT POINT t WRITES BACK through the quantized window: its block of the whole quantized array. -/
theorem flushedQ (c : Dev nD) (t : Fin cfg1.N) :
    (dat1 V c).flushed 3 t = ((cfg1.win 3).blk t).view.read (Elt Ideal) (quantArr (V c main_v26) (V c main_v27) (V c main_arg1)) := by
  show (cfg1.win 3).cut (grid1.coords t) ((dat1 V c).after 3 t) = _
  rw [after1_3]
  unfold out1_3
  rw [View.canon_unit_zero zeroOff]
  simp only [View.ld_unit_zero (S := S1x1) zeroOff, View.ld_unit_zero (S := S256x4096) zeroOff]
  funext j
  refine (stored1_apply (iblk1 V c 0 t) (iblk1 V c 1 t) (iblk1 V c 2 t) j).trans ?_
  show quant (V c main_v26 (((cfg1.win 0).blk t).view.emb (ix2 (0 : Fin 1) (0 : Fin 1)))) (V c main_v27 (((cfg1.win 1).blk t).view.emb (ix2 (0 : Fin 1) (0 : Fin 1))))
      (V c main_arg1 (((cfg1.win 2).blk t).view.emb j))
    = quant (V c main_v26 (ix2 0 0)) (V c main_v27 (ix2 0 0)) (V c main_arg1 (((cfg1.win 3).blk t).view.emb j))
  rw [emb_scale, emb_zp]
  obtain ⟨-, -, -, -, e0, e1, e2, e3, -⟩ := idxFacts t
  have h2 : ((cfg1.win 2).blk t).view.emb j = ((cfg1.win 3).blk t).view.emb j := by
    funext a; apply Fin.ext
    match a with
    | ⟨0, _⟩ => show win1_2.index t (0 : Fin 2) * 256 + 1 * (j 0).val = win1_3.index t (0 : Fin 2) * 256 + 1 * (j 0).val; omega
    | ⟨1, _⟩ => show win1_2.index t (1 : Fin 2) * 4096 + 1 * (j 1).val = win1_3.index t (1 : Fin 2) * 4096 + 1 * (j 1).val; omega
  rw [h2]

/-- WHAT POINT t WRITES BACK through the row-sum window: its block of the whole column of row sums. -/
theorem flushedS (c : Dev nD) (t : Fin cfg1.N) :
    (dat1 V c).flushed 4 t = ((cfg1.win 4).blk t).view.read (Elt Ideal) (rowSumArr (V c main_v26) (V c main_v27) (V c main_arg1)) := by
  show (cfg1.win 4).cut (grid1.coords t) ((dat1 V c).after 4 t) = _
  rw [after1_4]
  unfold out1_4
  rw [View.canon_unit_zero zeroOff]
  simp only [View.ld_unit_zero (S := S1x1) zeroOff, View.ld_unit_zero (S := S256x4096) zeroOff]
  funext j
  obtain ⟨r, rfl⟩ : ∃ r : Fin 256, j = ix2 r (0 : Fin 1) := ⟨⟨(j 0).val, (j 0).isLt⟩, funext fun a => Fin.ext (by
    match a with
    | ⟨0, _⟩ => rfl
    | ⟨1, _⟩ => have h : (j 1).val < 1 := (j 1).isLt; show (j 1).val = 0; omega)⟩
  refine (rowSum1_apply (iblk1 V c 0 t) (iblk1 V c 1 t) (iblk1 V c 2 t) r).trans ?_
  show ∑ k : Fin 4096, quant (V c main_v26 (((cfg1.win 0).blk t).view.emb (ix2 (0 : Fin 1) (0 : Fin 1)))) (V c main_v27 (((cfg1.win 1).blk t).view.emb (ix2 (0 : Fin 1) (0 : Fin 1))))
      (V c main_arg1 (((cfg1.win 2).blk t).view.emb (ix2 r k)))
    = ∑ k : Fin 4096, quant (V c main_v26 (ix2 0 0)) (V c main_v27 (ix2 0 0)) (V c main_arg1 (rowEntry (((cfg1.win 4).blk t).view.emb (ix2 r (0 : Fin 1))) k))
  rw [emb_scale, emb_zp]
  obtain ⟨-, -, -, -, e0, e1, -, -, e4, e5⟩ := idxFacts t
  refine Finset.sum_congr rfl fun k _ => ?_
  have h2 : ((cfg1.win 2).blk t).view.emb (ix2 r k) = rowEntry (((cfg1.win 4).blk t).view.emb (ix2 r (0 : Fin 1))) k := by
    funext a; apply Fin.ext
    match a with
    | ⟨0, _⟩ => show win1_2.index t (0 : Fin 2) * 256 + 1 * r.val = win1_4.index t (0 : Fin 2) * 256 + 1 * r.val; omega
    | ⟨1, _⟩ => show win1_2.index t (1 : Fin 2) * 4096 + 1 * k.val = k.val; omega
  rw [h2]

/-- An index of the quantized array is in point t's block iff each coordinate is in the block's range. -/
theorem memQ (t : Fin cfg1.N) (i : S11008x4096.Idx) :
    i ∈ ((cfg1.win 3).blk t).view.set ↔ ∀ a : Fin 2, win1_3.index t a * S256x4096.size a ≤ (i a).val ∧ (i a).val < win1_3.index t a * S256x4096.size a + S256x4096.size a := by
  show i ∈ ((View.whole main_v28_0).slice (win1_3.rect t)).set ↔ _
  rw [View.set_slice_whole, Rect.mem_set_unit]
  exact Iff.rfl

/-- An index of the row-sum column is in point t's block iff each coordinate is in the block's range. -/
theorem memS (t : Fin cfg1.N) (i : S11008x1.Idx) :
    i ∈ ((cfg1.win 4).blk t).view.set ↔ ∀ a : Fin 2, win1_4.index t a * S256x1.size a ≤ (i a).val ∧ (i a).val < win1_4.index t a * S256x1.size a + S256x1.size a := by
  show i ∈ ((View.whole main_v28_1).slice (win1_4.rect t)).set ↔ _
  rw [View.set_slice_whole, Rect.mem_set_unit]
  exact Iff.rfl

/-- Row r lies in the block of point r / 256. -/
theorem coverQ (i : S11008x4096.Idx) : ∃ t : Fin cfg1.N, (cfg1.win 3).flush t = true ∧ i ∈ ((cfg1.win 3).blk t).view.set := by
  have hN : cfg1.N = 43 := N_1
  have hi0 : (i 0).val < 11008 := (i 0).isLt
  have hi1 : (i 1).val < 4096 := (i 1).isLt
  obtain ⟨t, ht⟩ : ∃ t : Fin cfg1.N, t.val = (i 0).val / 256 := ⟨⟨(i 0).val / 256, by rw [hN]; omega⟩, rfl⟩
  refine ⟨t, flush1_3 t, ?_⟩
  rw [memQ]
  obtain ⟨-, -, -, -, -, -, e2, e3, -⟩ := idxFacts t
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 4096 ≤ (i 1).val ∧ (i 1).val < win1_3.index t (1 : Fin 2) * 4096 + 4096; omega

theorem coverS (i : S11008x1.Idx) : ∃ t : Fin cfg1.N, (cfg1.win 4).flush t = true ∧ i ∈ ((cfg1.win 4).blk t).view.set := by
  have hN : cfg1.N = 43 := N_1
  have hi0 : (i 0).val < 11008 := (i 0).isLt
  have hi1 : (i 1).val < 1 := (i 1).isLt
  obtain ⟨t, ht⟩ : ∃ t : Fin cfg1.N, t.val = (i 0).val / 256 := ⟨⟨(i 0).val / 256, by rw [hN]; omega⟩, rfl⟩
  refine ⟨t, flush1_4 t, ?_⟩
  rw [memS]
  obtain ⟨-, -, -, -, -, -, -, -, e4, e5⟩ := idxFacts t
  intro a
  match a with
  | ⟨0, _⟩ => show win1_4.index t (0 : Fin 2) * 256 ≤ (i 0).val ∧ (i 0).val < win1_4.index t (0 : Fin 2) * 256 + 256; omega
  | ⟨1, _⟩ => show win1_4.index t (1 : Fin 2) * 1 ≤ (i 1).val ∧ (i 1).val < win1_4.index t (1 : Fin 2) * 1 + 1; omega

/-- THE QUANTIZED ARRAY after the region. -/
theorem finalQ (c : Dev nD) : (dat1 V c).arrAt 3 cfg1.N = quantArr (V c main_v26) (V c main_v27) (V c main_arg1) :=
  (dat1 V c).arrAt_eq_of_cover 3 _ (fun t _ => flushedQ V c t) coverQ

/-- THE COLUMN OF ROW SUMS after the region. -/
theorem finalS (c : Dev nD) : (dat1 V c).arrAt 4 cfg1.N = rowSumArr (V c main_v26) (V c main_v27) (V c main_arg1) :=
  (dat1 V c).arrAt_eq_of_cover 4 _ (fun t _ => flushedS V c t) coverS

end Cert.Bridge.Region1

end
-- ==== Proof.KernelHost.lean ====
/-
  What the host operations around the kernel launches compute, read at the buffers the three regions are entered with:
  the two scales and zero points (the same chain of minimum, maximum, difference, quotient, rounding and clamping that
  the reference applies to the same tensors), the reshaped activations, and, before the product region, the scale
  product and the two correction vectors built from the quantizing regions' row sums.
-/
import proofs.«111236_j59219009077631_2_alg».proof.Proof.Gen.KernelIdeal.Frame
import proofs.«111236_j59219009077631_2_alg».proof.Proof.Gen.ReferenceIdeal.Read
import proofs.«111236_j59219009077631_2_alg».proof.Proof.Region0
import proofs.«111236_j59219009077631_2_alg».proof.Proof.Region1
import Idealize.ShloMosaic.Lib.StableHlo.RunLoop

set_option maxRecDepth 16384

noncomputable section

namespace Cert.Bridge.Host

open Idealize.ShloMosaic Idealize.ShloMosaic.TcCoe Idealize.ShloMosaic.ValueIdx Idealize.SL.Sem Idealize.ShloMosaic.StableHlo
open Cert.KernelIdeal Cert.KernelIdeal.Gen Cert.Bridge

variable (m : (ℓ : Loc nD τ sig) → Buf (Elt Ideal) ℓ) (ρ : Dev nD → PrngReg) (c : Dev nD)

/-! ## The arguments and the four scalars, named -/

/-- The activations as launched. -/
abbrev X0 : FVec Ideal S4x2048x4096 .f32 := m ((c : Thread nD τ).loc main_arg0)
/-- The weights as launched. -/
abbrev X1 : FVec Ideal S11008x4096 .f32 := m ((c : Thread nD τ).loc main_arg1)
/-- The bias as launched. -/
abbrev X2 : FVec Ideal S11008 .f32 := m ((c : Thread nD τ).loc main_arg2)
/-- The activations' scale, the reference's own term of the activations. -/
abbrev SX : FVec Ideal S_ .f32 := Cert.ReferenceIdeal.Read.val_main_v7 (F := Ideal) (X0 m c)
/-- The activations' zero point. -/
abbrev ZX : FVec Ideal S_ .f32 := Cert.ReferenceIdeal.Read.val_main_v11 (F := Ideal) (X0 m c)
/-- The weights' scale. -/
abbrev SW : FVec Ideal S_ .f32 := Cert.ReferenceIdeal.Read.val_main_v24 (F := Ideal) (X1 m c)
/-- The weights' zero point. -/
abbrev ZW : FVec Ideal S_ .f32 := Cert.ReferenceIdeal.Read.val_main_v28 (F := Ideal) (X1 m c)
/-- The activations as a matrix of 8192 rows. -/
abbrev X8 : FVec Ideal S8192x4096 .f32 := Cert.ReferenceIdeal.Read.val_main_v0 (F := Ideal) (X0 m c)

/-! ## Before the first region -/

/-- The contents at the first region's entry are the launch contents after the nine stretches of host operations before it, run as one line. -/
theorem pre_eq : W9 m ρ c = after (List.flatten [hostOps0, hostOps0_1, hostOps0_2, hostOps0_3, hostOps0_4, hostOps0_5, hostOps0_6, hostOps0_7, hostOps0_8]) (W0 m ρ c) :=
  afterL_eq_after_flatten [hostOps0, hostOps0_1, hostOps0_2, hostOps0_3, hostOps0_4, hostOps0_5, hostOps0_6, hostOps0_7, hostOps0_8] (W0 m ρ c)

/-- Evaluates a buffer of the first region's entry contents from the launch contents. -/
macro "pre_eval" : tactic =>
  `(tactic| (rw [pre_eq]
             simp only [hostOps0, hostOps0_1, hostOps0_2, hostOps0_3, hostOps0_4, hostOps0_5, hostOps0_6, hostOps0_7, hostOps0_8,
               List.flatten_cons, List.flatten_nil, List.append_nil, List.cons_append, List.nil_append]
             after_results_simp))

theorem pre_v7 : W9 m ρ c (Proc.devRef .tc main_v7) = SX m c := by pre_eval; rfl
theorem pre_v11 : W9 m ρ c (Proc.devRef .tc main_v11) = ZX m c := by pre_eval; rfl
theorem pre_v18 : W9 m ρ c (Proc.devRef .tc main_v18) = SW m c := by pre_eval; rfl
theorem pre_v22 : W9 m ρ c (Proc.devRef .tc main_v22) = ZW m c := by pre_eval; rfl
theorem pre_v0 : W9 m ρ c (Proc.devRef .tc main_v0) = X8 m c := by pre_eval; rfl
theorem pre_v23 : W9 m ρ c (Proc.devRef .tc main_v23) = shapeCast S1x1 (SX m c) shapeCasts_S_S1x1 := by pre_eval; rfl
theorem pre_v24 : W9 m ρ c (Proc.devRef .tc main_v24) = shapeCast S1x1 (ZX m c) shapeCasts_S_S1x1 := by pre_eval; rfl
theorem pre_arg1 : W9 m ρ c (Proc.devRef .tc main_arg1) = X1 m c := by pre_eval
theorem pre_arg2 : W9 m ρ c (Proc.devRef .tc main_arg2) = X2 m c := by pre_eval

/-! ## Small readings -/

/-- A scalar cast to a 1 × 1 tensor, read at its one entry. -/
theorem cast11 (y : FVec Ideal S_ .f32) : shapeCast S1x1 y shapeCasts_S_S1x1 (ix2 (0 : Fin 1) (0 : Fin 1)) = y ix0 :=
  shapeCast_apply y shapeCasts_S_S1x1 (ix2 (0 : Fin 1) (0 : Fin 1)) ix0 (by
    rw [Shape.rowMajor_val_two]
    have h : (S_.rowMajor ix0).val < 1 := (S_.rowMajor ix0).isLt
    show (S_.rowMajor ix0).val = 0 * 1 + 0
    omega)

/-- A scalar broadcast to any shape reads the scalar everywhere. -/
theorem bcast0 {t : Shape} (h : S_.BroadcastsInDim t (![] : Fin 0 → Fin t.rank)) (y : FVec Ideal S_ .f32) (j : t.Idx) :
    broadcastInDim t ![] h y j = y ix0 :=
  broadcastInDim_apply _ h y j ix0 (fun a => a.elim0)

/-! ## The first quantizing region's outputs -/

theorem q0 : W10 m ρ c (Proc.devRef .tc main_v25_0)
    = Region0.quantArr (W9 m ρ c (Proc.devRef .tc main_v23)) (W9 m ρ c (Proc.devRef .tc main_v24)) (W9 m ρ c (Proc.devRef .tc main_v0)) :=
  (W10_arr m ρ c 3).trans (Region0.finalQ (V9 m ρ) c)

theorem s0 : W10 m ρ c (Proc.devRef .tc main_v25_1)
    = Region0.rowSumArr (W9 m ρ c (Proc.devRef .tc main_v23)) (W9 m ρ c (Proc.devRef .tc main_v24)) (W9 m ρ c (Proc.devRef .tc main_v0)) :=
  (W10_arr m ρ c 4).trans (Region0.finalS (V9 m ρ) c)

/-- The quantized activations. -/
theorem q0_apply (j : S8192x4096.Idx) :
    W10 m ρ c (Proc.devRef .tc main_v25_0) j = quant (SX m c ix0) (ZX m c ix0) (X8 m c j) := by
  rw [q0, pre_v23, pre_v24, pre_v0]
  unfold Region0.quantArr
  rw [cast11, cast11]

/-- The quantized activations' row sums. -/
theorem s0_apply (r : Fin 8192) :
    W10 m ρ c (Proc.devRef .tc main_v25_1) (ix2 r (0 : Fin 1)) = ∑ k : Fin 4096, quant (SX m c ix0) (ZX m c ix0) (X8 m c (ix2 r k)) := by
  rw [s0, pre_v23, pre_v24, pre_v0]
  unfold Region0.rowSumArr
  rw [cast11, cast11]

/-! ## Between the two quantizing regions -/

theorem mid_v26 : W11 m ρ c (Proc.devRef .tc main_v26) = shapeCast S1x1 (SW m c) shapeCasts_S_S1x1 := by
  have e : W10 m ρ c (Proc.devRef .tc main_v18) = SW m c := (W10_of_ne m ρ c main_v18 (by decide)).trans (pre_v18 m ρ c)
  show after hostOps1 (W10 m ρ c) (Proc.devRef .tc main_v26) = _
  after_results
  rw [e]; rfl

theorem mid_v27 : W11 m ρ c (Proc.devRef .tc main_v27) = shapeCast S1x1 (ZW m c) shapeCasts_S_S1x1 := by
  have e : W10 m ρ c (Proc.devRef .tc main_v22) = ZW m c := (W10_of_ne m ρ c main_v22 (by decide)).trans (pre_v22 m ρ c)
  show after hostOps1 (W10 m ρ c) (Proc.devRef .tc main_v27) = _
  after_results
  rw [e]; rfl

theorem mid_arg1 : W11 m ρ c (Proc.devRef .tc main_arg1) = X1 m c := by
  show after hostOps1 (W10 m ρ c) (Proc.devRef .tc main_arg1) = _
  after_results
  exact (W10_of_ne m ρ c main_arg1 (by decide)).trans (pre_arg1 m ρ c)

/-! ## The second quantizing region's outputs -/

theorem q1 : W12 m ρ c (Proc.devRef .tc main_v28_0)
    = Region1.quantArr (W11 m ρ c (Proc.devRef .tc main_v26)) (W11 m ρ c (Proc.devRef .tc main_v27)) (W11 m ρ c (Proc.devRef .tc main_arg1)) :=
  (W12_arr m ρ c 3).trans (Region1.finalQ (V11 m ρ) c)

theorem s1 : W12 m ρ c (Proc.devRef .tc main_v28_1)
    = Region1.rowSumArr (W11 m ρ c (Proc.devRef .tc main_v26)) (W11 m ρ c (Proc.devRef .tc main_v27)) (W11 m ρ c (Proc.devRef .tc main_arg1)) :=
  (W12_arr m ρ c 4).trans (Region1.finalS (V11 m ρ) c)

/-- The quantized weights. -/
theorem q1_apply (j : S11008x4096.Idx) :
    W12 m ρ c (Proc.devRef .tc main_v28_0) j = quant (SW m c ix0) (ZW m c ix0) (X1 m c j) := by
  rw [q1, mid_v26, mid_v27, mid_arg1]
  unfold Region1.quantArr
  rw [cast11, cast11]

/-- The quantized weights' row sums. -/
theorem s1_apply (r : Fin 11008) :
    W12 m ρ c (Proc.devRef .tc main_v28_1) (ix2 r (0 : Fin 1)) = ∑ k : Fin 4096, quant (SW m c ix0) (ZW m c ix0) (X1 m c (ix2 r k)) := by
  rw [s1, mid_v26, mid_v27, mid_arg1]
  unfold Region1.rowSumArr
  rw [cast11, cast11]

/-! ## What reaches the product region unchanged -/

/-- A buffer written before the first region and by nothing after it keeps its contents up to the product region's host stretch. -/
theorem late_v7 : W12 m ρ c (Proc.devRef .tc main_v7) = SX m c := by
  refine (W12_of_ne m ρ c main_v7 (by decide)).trans ?_
  show after hostOps1 (W10 m ρ c) (Proc.devRef .tc main_v7) = _
  after_results
  exact (W10_of_ne m ρ c main_v7 (by decide)).trans (pre_v7 m ρ c)
theorem late_v11 : W12 m ρ c (Proc.devRef .tc main_v11) = ZX m c := by
  refine (W12_of_ne m ρ c main_v11 (by decide)).trans ?_
  show after hostOps1 (W10 m ρ c) (Proc.devRef .tc main_v11) = _
  after_results
  exact (W10_of_ne m ρ c main_v11 (by decide)).trans (pre_v11 m ρ c)
theorem late_v18 : W12 m ρ c (Proc.devRef .tc main_v18) = SW m c := by
  refine (W12_of_ne m ρ c main_v18 (by decide)).trans ?_
  show after hostOps1 (W10 m ρ c) (Proc.devRef .tc main_v18) = _
  after_results
  exact (W10_of_ne m ρ c main_v18 (by decide)).trans (pre_v18 m ρ c)
theorem late_v22 : W12 m ρ c (Proc.devRef .tc main_v22) = ZW m c := by
  refine (W12_of_ne m ρ c main_v22 (by decide)).trans ?_
  show after hostOps1 (W10 m ρ c) (Proc.devRef .tc main_v22) = _
  after_results
  exact (W10_of_ne m ρ c main_v22 (by decide)).trans (pre_v22 m ρ c)
theorem late_arg2 : W12 m ρ c (Proc.devRef .tc main_arg2) = X2 m c := by
  refine (W12_of_ne m ρ c main_arg2 (by decide)).trans ?_
  show after hostOps1 (W10 m ρ c) (Proc.devRef .tc main_arg2) = _
  after_results
  exact (W10_of_ne m ρ c main_arg2 (by decide)).trans (pre_arg2 m ρ c)

/-- The first region's outputs are still there. -/
theorem late_v25_0 : W12 m ρ c (Proc.devRef .tc main_v25_0) = W10 m ρ c (Proc.devRef .tc main_v25_0) := by
  refine (W12_of_ne m ρ c main_v25_0 (by decide)).trans ?_
  show after hostOps1 (W10 m ρ c) (Proc.devRef .tc main_v25_0) = _
  after_results
theorem late_v25_1 : W12 m ρ c (Proc.devRef .tc main_v25_1) = W10 m ρ c (Proc.devRef .tc main_v25_1) := by
  refine (W12_of_ne m ρ c main_v25_1 (by decide)).trans ?_
  show after hostOps1 (W10 m ρ c) (Proc.devRef .tc main_v25_1) = _
  after_results

/-! ## The product region's operands -/

/-- The product of the two scales. -/
abbrev SC : FVec Ideal S_ .f32 := mulf (SX m c) (SW m c)
/-- The activations' row sums, as the first region left them. -/
abbrev RS0 : FVec Ideal S8192x1 .f32 := W10 m ρ c (Proc.devRef .tc main_v25_1)
/-- The weights' row sums, as the second region left them. -/
abbrev RS1 : FVec Ideal S11008x1 .f32 := W12 m ρ c (Proc.devRef .tc main_v28_1)

theorem prod_scale : W13 m ρ c (Proc.devRef .tc main_v45) = shapeCast S1x1 (SC m c) shapeCasts_S_S1x1 := by
  show after hostOps2 (W12 m ρ c) (Proc.devRef .tc main_v45) = _
  simp only [hostOps2]
  after_results_simp
  rw [late_v7, late_v18]; rfl

theorem prod_qx : W13 m ρ c (Proc.devRef .tc main_v25_0) = W10 m ρ c (Proc.devRef .tc main_v25_0) := by
  show after hostOps2 (W12 m ρ c) (Proc.devRef .tc main_v25_0) = _
  simp only [hostOps2]
  after_results_simp
  exact late_v25_0 m ρ c

theorem prod_qw : W13 m ρ c (Proc.devRef .tc main_v28_0) = W12 m ρ c (Proc.devRef .tc main_v28_0) := by
  show after hostOps2 (W12 m ρ c) (Proc.devRef .tc main_v28_0) = _
  simp only [hostOps2]
  after_results_simp

theorem prod_rowCorr : W13 m ρ c (Proc.devRef .tc main_v34)
    = mulf (broadcastInDim S8192x1 ![] bcast_S_S8192x1 (mulf (Host.negf (SC m c)) (ZW m c))) (RS0 m ρ c) := by
  show after hostOps2 (W12 m ρ c) (Proc.devRef .tc main_v34) = _
  simp only [hostOps2]
  after_results_simp
  rw [late_v7, late_v18, late_v22, late_v25_1]

theorem prod_colCorr : W13 m ρ c (Proc.devRef .tc main_v44)
    = addf (subf (shapeCast S1x11008 (X2 m c) shapeCasts_S11008_S1x11008)
        (mulf (broadcastInDim S1x11008 ![] bcast_S_S1x11008 (mulf (SC m c) (ZX m c))) (shapeCast S1x11008 (RS1 m ρ c) shapeCasts_S11008x1_S1x11008)))
      (broadcastInDim S1x11008 ![] bcast_S_S1x11008 (mulf (mulf (mulf (SC m c) (constant S_ .f32 0x45800000#32)) (ZX m c)) (ZW m c))) := by
  show after hostOps2 (W12 m ρ c) (Proc.devRef .tc main_v44) = _
  simp only [hostOps2]
  after_results_simp
  rw [late_v7, late_v18, late_v22, late_v11, late_arg2]
  rfl

end Cert.Bridge.Host

end
-- ==== Proof.Product.lean ====
/-
  The product body, entry by entry: at (p, q) of a 1024 × 256 block it leaves
  scale · Σₖ a(p, k) · b(q, k) + rowCorrection(p) + columnCorrection(q),
  the sum over the 4096 entries of row p of the activations' block and row q of the weights' block.
-/
import proofs.«111236_j59219009077631_2_alg».proof.Proof.Payload

noncomputable section

namespace Cert.Bridge

open Idealize.ShloMosaic Idealize.ShloMosaic.ValueIdx Cert.KernelIdeal Cert.KernelIdeal.Gen

/-- The left operand's row is the result's row. -/
theorem dotL0 (i : S1024x256.Idx) (q : dot_S1024x4096_S256x4096_S1024x256_1_1_0_0_n_n.contr.Idx) :
    (dot_S1024x4096_S256x4096_S1024x256_1_1_0_0_n_n.lhsIdx i q 0).val = (i 0).val := by
  unfold DotDims.lhsIdx
  rw [dif_neg (show ¬(0 : Fin S1024x4096.rank) ∈ dot_S1024x4096_S256x4096_S1024x256_1_1_0_0_n_n.lhsBatch by decide),
    dif_pos (show (0 : Fin S1024x4096.rank) ∈ dot_S1024x4096_S256x4096_S1024x256_1_1_0_0_n_n.lhsNonContracting by decide)]
  rfl

/-- The right operand's row is the result's column. -/
theorem dotR0 (i : S1024x256.Idx) (q : dot_S1024x4096_S256x4096_S1024x256_1_1_0_0_n_n.contr.Idx) :
    (dot_S1024x4096_S256x4096_S1024x256_1_1_0_0_n_n.rhsIdx i q 0).val = (i 1).val := by
  unfold DotDims.rhsIdx
  rw [dif_neg (show ¬(0 : Fin S256x4096.rank) ∈ dot_S1024x4096_S256x4096_S1024x256_1_1_0_0_n_n.rhsBatch by decide),
    dif_pos (show (0 : Fin S256x4096.rank) ∈ dot_S1024x4096_S256x4096_S1024x256_1_1_0_0_n_n.rhsNonContracting by decide)]
  rfl

/-- The matrix product into a zero accumulator, at (p, q): the inner product of row p and row q. -/
theorem dotBlock_apply (l : FVec Ideal S1024x4096 .bf16) (r : FVec Ideal S256x4096 .bf16) (p : Fin 1024) (q : Fin 256) :
    matmul dot_S1024x4096_S256x4096_S1024x256_1_1_0_0_n_n none l r (constant S1024x256 .f32 0x00000000#32) (ix2 p q)
      = ∑ k : Fin 4096, l (ix2 p k) * r (ix2 q k) := by
  refine (Ideal.matmul_constant_zero_apply dot_S1024x4096_S256x4096_S1024x256_1_1_0_0_n_n none l r (ix2 p q)).trans ?_
  rw [← Equiv.sum_comp (contrEquiv1 dot_S1024x4096_S256x4096_S1024x256_1_1_0_0_n_n 4096 rfl rfl).symm]
  refine Finset.sum_congr rfl fun k _ => ?_
  have hk := contrEquiv1_symm_val dot_S1024x4096_S256x4096_S1024x256_1_1_0_0_n_n 4096 rfl rfl k
  have el : dot_S1024x4096_S256x4096_S1024x256_1_1_0_0_n_n.lhsIdx (ix2 p q)
      ((contrEquiv1 dot_S1024x4096_S256x4096_S1024x256_1_1_0_0_n_n 4096 rfl rfl).symm k) = ix2 p k := funext fun a => Fin.ext (by
    match a with
    | ⟨0, _⟩ => exact dotL0 _ _
    | ⟨1, _⟩ => exact (dot_S1024x4096_S256x4096_S1024x256_1_1_0_0_n_n.lhsIdx_val_of_single rfl _ _).trans hk)
  have er : dot_S1024x4096_S256x4096_S1024x256_1_1_0_0_n_n.rhsIdx (ix2 p q)
      ((contrEquiv1 dot_S1024x4096_S256x4096_S1024x256_1_1_0_0_n_n 4096 rfl rfl).symm k) = ix2 q k := funext fun a => Fin.ext (by
    match a with
    | ⟨0, _⟩ => exact dotR0 _ _
    | ⟨1, _⟩ => exact (dot_S1024x4096_S256x4096_S1024x256_1_1_0_0_n_n.rhsIdx_val_of_single rfl _ _).trans hk)
  rw [el, er]

/-- The product body at (p, q). -/
theorem product_apply (v0 : Vec Ideal S1x1 .f32) (v2 : Vec Ideal S1024x4096 .bf16) (v4 : Vec Ideal S256x4096 .bf16)
    (v9 : Vec Ideal S1024x1 .f32) (v13 : Vec Ideal S1x256 .f32) (p : Fin 1024) (q : Fin 256) :
    k2_pay1 (F := Ideal) v0 v2 v4 v9 v13 (ix2 p q)
      = v0 (ix2 0 0) * (∑ k : Fin 4096, v2 (ix2 p k) * v4 (ix2 q k)) + v9 (ix2 p 0) + v13 (ix2 0 q) := by
  unfold k2_pay1
  rw [shapeCast_self, shapeCast_self, shapeCast_self, shapeCast_self, extract00]
  show (v0 (ix2 0 0) * matmul (F := Ideal) dot_S1024x4096_S256x4096_S1024x256_1_1_0_0_n_n none v2 v4 (constant (F := Ideal) S1024x256 .f32 0x00000000#32) (ix2 p q)
      + broadcastTo S1024x256 v9 broadcasts_S1024x1_S1024x256 (ix2 p q)) + broadcastTo S1024x256 v13 broadcasts_S1x256_S1024x256 (ix2 p q) = _
  rw [dotBlock_apply,
    broadcastTo_apply v9 broadcasts_S1024x1_S1024x256 (ix2 p q) (ix2 p 0) (fun a => by
      match a with
      | ⟨0, _⟩ => show p.val = if (1024 : Nat) = 1 then 0 else p.val; rw [if_neg (by decide)]
      | ⟨1, _⟩ => rfl),
    broadcastTo_apply v13 broadcasts_S1x256_S1024x256 (ix2 p q) (ix2 0 q) (fun a => by
      match a with
      | ⟨0, _⟩ => rfl
      | ⟨1, _⟩ => show q.val = if (256 : Nat) = 1 then 0 else q.val; rw [if_neg (by decide)])]

end Cert.Bridge

end
-- ==== Proof.Region2.lean ====
/-
  The product region: what its output array holds once all 8 × 43 grid points have written back.
  Point (a, b) computes rows 1024·a … of the quantized activations against rows 256·b … of the quantized weights; entry (i, j)
  of the 8192 × 11008 result depends on row i of the one and row j of the other only, so every written block is the restriction
  of one whole-array function, and the 344 blocks tile the array.
-/
import proofs.«111236_j59219009077631_2_alg».proof.Proof.Gen.KernelIdeal.Frame
import proofs.«111236_j59219009077631_2_alg».proof.Proof.Product

set_option maxRecDepth 16384

noncomputable section

namespace Cert.Bridge.Region2

open Idealize.ShloMosaic Idealize.ShloMosaic.TcCoe Idealize.ShloMosaic.ValueIdx Idealize.SL.Sem Cert.KernelIdeal Cert.KernelIdeal.Gen Cert.Bridge
open Idealize.ShloMosaic.Pipeline (Dat)

variable (V : (c : Dev nD) → (b : Ref sig .tc) → Buf (Elt Ideal) ((c : Thread nD τ).loc b))

theorem zeroOff : (![0, 0] : Fin 2 → Nat) = fun _ => 0 := funext fun a => by fin_cases a <;> rfl

/-- Entry k of the activations' row that a result index names. -/
abbrev lrow (i : S8192x11008.Idx) (k : Fin 4096) : S8192x4096.Idx := ix2 (⟨(i 0).val, (i 0).isLt⟩ : Fin 8192) k
/-- Entry k of the weights' row that a result index names. -/
abbrev rrow (i : S8192x11008.Idx) (k : Fin 4096) : S11008x4096.Idx := ix2 (⟨(i 1).val, (i 1).isLt⟩ : Fin 11008) k
/-- The row correction's entry for a result index. -/
abbrev lcol (i : S8192x11008.Idx) : S8192x1.Idx := ix2 (⟨(i 0).val, (i 0).isLt⟩ : Fin 8192) (0 : Fin 1)
/-- The column correction's entry for a result index. -/
abbrev rcol (i : S8192x11008.Idx) : S1x11008.Idx := ix2 (0 : Fin 1) (⟨(i 1).val, (i 1).isLt⟩ : Fin 11008)

/-- The whole result: scale · ⟨row i, row j⟩ + rowCorrection i + columnCorrection j. -/
def outArr (a0 : S1x1.Idx → EReal) (a1 : S8192x4096.Idx → EReal) (a2 : S11008x4096.Idx → EReal) (a3 : S8192x1.Idx → EReal)
    (a4 : S1x11008.Idx → EReal) : S8192x11008.Idx → EReal :=
  fun i => a0 (ix2 0 0) * (∑ k : Fin 4096, a1 (lrow i k) * a2 (rrow i k)) + a3 (lcol i) + a4 (rcol i)

/-- The body's entry, read through any block coordinates that name the result index's rows and columns, is the whole result's entry. -/
theorem block_eq (a0 : S1x1.Idx → EReal) (a1 : S8192x4096.Idx → EReal) (a2 : S11008x4096.Idx → EReal) (a3 : S8192x1.Idx → EReal)
    (a4 : S1x11008.Idx → EReal) (e0 : S1x1.Idx) (e1 : Fin 4096 → S8192x4096.Idx) (e2 : Fin 4096 → S11008x4096.Idx) (e3 : S8192x1.Idx)
    (e4 : S1x11008.Idx) (i : S8192x11008.Idx) (h0 : e0 = ix2 (0 : Fin 1) (0 : Fin 1)) (h1 : ∀ k, e1 k = lrow i k) (h2 : ∀ k, e2 k = rrow i k)
    (h3 : e3 = lcol i) (h4 : e4 = rcol i) :
    a0 e0 * (∑ k : Fin 4096, a1 (e1 k) * a2 (e2 k)) + a3 e3 + a4 e4 = outArr a0 a1 a2 a3 a4 i := by
  subst h0 h3 h4
  unfold outArr
  simp only [h1, h2]

/-- The printed index maps over the grid: point t is block row t / 43, block column t % 43. -/
theorem idxFacts : ∀ t : Fin cfg2.N, win2_0.index t (0 : Fin 2) = 0 ∧ win2_0.index t (1 : Fin 2) = 0
    ∧ win2_1.index t (0 : Fin 2) = t.val / 43 ∧ win2_1.index t (1 : Fin 2) = 0
    ∧ win2_2.index t (0 : Fin 2) = t.val % 43 ∧ win2_2.index t (1 : Fin 2) = 0
    ∧ win2_3.index t (0 : Fin 2) = t.val / 43 ∧ win2_3.index t (1 : Fin 2) = 0
    ∧ win2_4.index t (0 : Fin 2) = 0 ∧ win2_4.index t (1 : Fin 2) = t.val % 43
    ∧ win2_5.index t (0 : Fin 2) = t.val / 43 ∧ win2_5.index t (1 : Fin 2) = t.val % 43 :=
  (by decide +kernel : ∀ t : Fin grid2.N, _)

/-- WHAT POINT t WRITES BACK: its block of the whole result. -/
theorem flushedOut (c : Dev nD) (t : Fin cfg2.N) :
    (dat2 V c).flushed 5 t = ((cfg2.win 5).blk t).view.read (Elt Ideal)
      (outArr (V c main_v45) (V c main_v25_0) (V c main_v28_0) (V c main_v34) (V c main_v44)) := by
  show (cfg2.win 5).cut (grid2.coords t) ((dat2 V c).after 5 t) = _
  rw [after2_5]
  unfold out2_5
  rw [View.canon_unit_zero zeroOff]
  simp only [View.ld_unit_zero (S := S1x1) zeroOff, View.ld_unit_zero (S := S1024x4096) zeroOff, View.ld_unit_zero (S := S256x4096) zeroOff,
    View.ld_unit_zero (S := S1024x1) zeroOff, View.ld_unit_zero (S := S1x256) zeroOff]
  funext j
  obtain ⟨p, q, rfl⟩ : ∃ (p : Fin 1024) (q : Fin 256), j = ix2 p q := ⟨j 0, j 1, eq_ix2 j⟩
  refine (product_apply (iblk2 V c 0 t) (iblk2 V c 1 t) (iblk2 V c 2 t) (iblk2 V c 3 t) (iblk2 V c 4 t) p q).trans ?_
  obtain ⟨e00, e01, e10, e11, e20, e21, e30, e31, e40, e41, e50, e51⟩ := idxFacts t
  have h0 : ((cfg2.win 0).blk t).view.emb (ix2 (0 : Fin 1) (0 : Fin 1)) = ix2 (0 : Fin 1) (0 : Fin 1) := by
    funext a; apply Fin.ext
    match a with
    | ⟨0, _⟩ => show win2_0.index t (0 : Fin 2) * 1 + 1 * 0 = 0; omega
    | ⟨1, _⟩ => show win2_0.index t (1 : Fin 2) * 1 + 1 * 0 = 0; omega
  have h1 : ∀ k : Fin 4096, ((cfg2.win 1).blk t).view.emb (ix2 p k) = lrow (((cfg2.win 5).blk t).view.emb (ix2 p q)) k := fun k => by
    funext a; apply Fin.ext
    match a with
    | ⟨0, _⟩ => show win2_1.index t (0 : Fin 2) * 1024 + 1 * p.val = win2_5.index t (0 : Fin 2) * 1024 + 1 * p.val; omega
    | ⟨1, _⟩ => show win2_1.index t (1 : Fin 2) * 4096 + 1 * k.val = k.val; omega
  have h2 : ∀ k : Fin 4096, ((cfg2.win 2).blk t).view.emb (ix2 q k) = rrow (((cfg2.win 5).blk t).view.emb (ix2 p q)) k := fun k => by
    funext a; apply Fin.ext
    match a with
    | ⟨0, _⟩ => show win2_2.index t (0 : Fin 2) * 256 + 1 * q.val = win2_5.index t (1 : Fin 2) * 256 + 1 * q.val; omega
    | ⟨1, _⟩ => show win2_2.index t (1 : Fin 2) * 4096 + 1 * k.val = k.val; omega
  have h3 : ((cfg2.win 3).blk t).view.emb (ix2 p (0 : Fin 1)) = lcol (((cfg2.win 5).blk t).view.emb (ix2 p q)) := by
    funext a; apply Fin.ext
    match a with
    | ⟨0, _⟩ => show win2_3.index t (0 : Fin 2) * 1024 + 1 * p.val = win2_5.index t (0 : Fin 2) * 1024 + 1 * p.val; omega
    | ⟨1, _⟩ => show win2_3.index t (1 : Fin 2) * 1 + 1 * 0 = 0; omega
  have h4 : ((cfg2.win 4).blk t).view.emb (ix2 (0 : Fin 1) q) = rcol (((cfg2.win 5).blk t).view.emb (ix2 p q)) := by
    funext a; apply Fin.ext
    match a with
    | ⟨0, _⟩ => show win2_4.index t (0 : Fin 2) * 1 + 1 * 0 = 0; omega
    | ⟨1, _⟩ => show win2_4.index t (1 : Fin 2) * 256 + 1 * q.val = win2_5.index t (1 : Fin 2) * 256 + 1 * q.val; omega
  exact block_eq (V c main_v45) (V c main_v25_0) (V c main_v28_0) (V c main_v34) (V c main_v44)
    (((cfg2.win 0).blk t).view.emb (ix2 (0 : Fin 1) (0 : Fin 1))) (fun k => ((cfg2.win 1).blk t).view.emb (ix2 p k))
    (fun k => ((cfg2.win 2).blk t).view.emb (ix2 q k)) (((cfg2.win 3).blk t).view.emb (ix2 p (0 : Fin 1)))
    (((cfg2.win 4).blk t).view.emb (ix2 (0 : Fin 1) q)) (((cfg2.win 5).blk t).view.emb (ix2 p q)) h0 h1 h2 h3 h4

/-- An index of the result is in point t's block iff each coordinate is in the block's range. -/
theorem memOut (t : Fin cfg2.N) (i : S8192x11008.Idx) :
    i ∈ ((cfg2.win 5).blk t).view.set ↔ ∀ a : Fin 2, win2_5.index t a * S1024x256.size a ≤ (i a).val ∧ (i a).val < win2_5.index t a * S1024x256.size a + S1024x256.size a := by
  show i ∈ ((View.whole main_v46).slice (win2_5.rect t)).set ↔ _
  rw [View.set_slice_whole, Rect.mem_set_unit]
  exact Iff.rfl

/-- Entry (i, j) lies in the block of point (i / 1024) · 43 + j / 256. -/
theorem coverOut (i : S8192x11008.Idx) : ∃ t : Fin cfg2.N, (cfg2.win 5).flush t = true ∧ i ∈ ((cfg2.win 5).blk t).view.set := by
  have hN : cfg2.N = 344 := N_2
  have hi0 : (i 0).val < 8192 := (i 0).isLt
  have hi1 : (i 1).val < 11008 := (i 1).isLt
  obtain ⟨t, ht⟩ : ∃ t : Fin cfg2.N, t.val = (i 0).val / 1024 * 43 + (i 1).val / 256 :=
    ⟨⟨(i 0).val / 1024 * 43 + (i 1).val / 256, by rw [hN]; omega⟩, rfl⟩
  refine ⟨t, flush2_5 t, ?_⟩
  rw [memOut]
  obtain ⟨-, -, -, -, -, -, -, -, -, -, e50, e51⟩ := idxFacts t
  intro a
  match a with
  | ⟨0, _⟩ =>
    show win2_5.index t (0 : Fin 2) * 1024 ≤ (i 0).val ∧ (i 0).val < win2_5.index t (0 : Fin 2) * 1024 + 1024
    omega
  | ⟨1, _⟩ =>
    show win2_5.index t (1 : Fin 2) * 256 ≤ (i 1).val ∧ (i 1).val < win2_5.index t (1 : Fin 2) * 256 + 256
    omega

/-- THE RESULT ARRAY after the region. -/
theorem finalOut (c : Dev nD) : (dat2 V c).arrAt 5 cfg2.N
    = outArr (V c main_v45) (V c main_v25_0) (V c main_v28_0) (V c main_v34) (V c main_v44) :=
  (dat2 V c).arrAt_eq_of_cover 5 _ (fun t _ => flushedOut V c t) coverOut

end Cert.Bridge.Region2

end
-- ==== Proof.KernelEntry.lean ====
/-
  One entry of the kernel program's result. Entry (i, j) of the product region's output array is
      (sx·sw)·Σₖ qx(i,k)·qw(j,k) + (−(sx·sw)·zw)·Σₖ qx(i,k) + ((bias j − ((sx·sw)·zx)·Σₖ qw(j,k)) + (((sx·sw)·4096)·zx)·zw),
  with qx, qw the quantized activations and weights, sx, sw, zx, zw the scales and zero points; the program's result is that
  array reshaped.
-/
import proofs.«111236_j59219009077631_2_alg».proof.Proof.KernelHost
import proofs.«111236_j59219009077631_2_alg».proof.Proof.Region2

set_option maxRecDepth 16384

noncomputable section

namespace Cert.Bridge.Host

open Idealize.ShloMosaic Idealize.ShloMosaic.TcCoe Idealize.ShloMosaic.ValueIdx Idealize.SL.Sem Idealize.ShloMosaic.StableHlo
open Cert.KernelIdeal Cert.KernelIdeal.Gen Cert.Bridge

variable (m : (ℓ : Loc nD τ sig) → Buf (Elt Ideal) ℓ) (ρ : Dev nD → PrngReg) (c : Dev nD)

/-- The product region's output array. -/
theorem out_arr : W14 m ρ c (Proc.devRef .tc main_v46)
    = Region2.outArr (W13 m ρ c (Proc.devRef .tc main_v45)) (W13 m ρ c (Proc.devRef .tc main_v25_0)) (W13 m ρ c (Proc.devRef .tc main_v28_0))
        (W13 m ρ c (Proc.devRef .tc main_v34)) (W13 m ρ c (Proc.devRef .tc main_v44)) :=
  (W14_arr m ρ c 5).trans (Region2.finalOut (V13 m ρ) c)

/-- The program's result is the output array reshaped. -/
theorem result_eq : W15 m ρ c (Proc.devRef .tc main_v47)
    = shapeCast S4x2048x11008 (W14 m ρ c (Proc.devRef .tc main_v46)) shapeCasts_S8192x11008_S4x2048x11008 := by
  show after hostOps3 (W14 m ρ c) (Proc.devRef .tc main_v47) = _
  after_results
  rfl

/-- The quantized activations as one function. -/
theorem q0_fun : W10 m ρ c (Proc.devRef .tc main_v25_0) = fun j : S8192x4096.Idx => quant (SX m c ix0) (ZX m c ix0) (X8 m c j) :=
  funext (q0_apply m ρ c)

/-- The quantized weights as one function. -/
theorem q1_fun : W12 m ρ c (Proc.devRef .tc main_v28_0) = fun j : S11008x4096.Idx => quant (SW m c ix0) (ZW m c ix0) (X1 m c j) :=
  funext (q1_apply m ρ c)

/-- The row correction at row r. -/
theorem rowCorr_apply (r : Fin 8192) :
    mulf (broadcastInDim S8192x1 ![] bcast_S_S8192x1 (mulf (Host.negf (SC m c)) (ZW m c))) (RS0 m ρ c) (ix2 r (0 : Fin 1))
      = (-(SX m c ix0 * SW m c ix0) * ZW m c ix0) * ∑ k : Fin 4096, quant (SX m c ix0) (ZX m c ix0) (X8 m c (ix2 r k)) := by
  show broadcastInDim S8192x1 ![] bcast_S_S8192x1 (mulf (Host.negf (SC m c)) (ZW m c)) (ix2 r (0 : Fin 1))
      * W10 m ρ c (Proc.devRef .tc main_v25_1) (ix2 r (0 : Fin 1)) = _
  rw [bcast0, s0_apply]
  rfl

/-- The column correction at column q. -/
theorem colCorr_apply (q : Fin 11008) :
    addf (subf (shapeCast S1x11008 (X2 m c) shapeCasts_S11008_S1x11008)
        (mulf (broadcastInDim S1x11008 ![] bcast_S_S1x11008 (mulf (SC m c) (ZX m c))) (shapeCast S1x11008 (RS1 m ρ c) shapeCasts_S11008x1_S1x11008)))
      (broadcastInDim S1x11008 ![] bcast_S_S1x11008 (mulf (mulf (mulf (SC m c) (constant S_ .f32 0x45800000#32)) (ZX m c)) (ZW m c))) (ix2 (0 : Fin 1) q)
      = (X2 m c (ix1 q) - ((SX m c ix0 * SW m c ix0) * ZX m c ix0) * ∑ k : Fin 4096, quant (SW m c ix0) (ZW m c ix0) (X1 m c (ix2 q k)))
        + (((SX m c ix0 * SW m c ix0) * Ideal.ofBits .f32 0x45800000#32) * ZX m c ix0) * ZW m c ix0 := by
  show (shapeCast S1x11008 (X2 m c) shapeCasts_S11008_S1x11008 (ix2 (0 : Fin 1) q)
      - broadcastInDim S1x11008 ![] bcast_S_S1x11008 (mulf (SC m c) (ZX m c)) (ix2 (0 : Fin 1) q)
        * shapeCast S1x11008 (RS1 m ρ c) shapeCasts_S11008x1_S1x11008 (ix2 (0 : Fin 1) q))
      + broadcastInDim S1x11008 ![] bcast_S_S1x11008 (mulf (mulf (mulf (SC m c) (constant S_ .f32 0x45800000#32)) (ZX m c)) (ZW m c)) (ix2 (0 : Fin 1) q) = _
  rw [bcast0, bcast0,
    shapeCast_apply (X2 m c) shapeCasts_S11008_S1x11008 (ix2 (0 : Fin 1) q) (ix1 q) (by
      rw [Shape.rowMajor_val_one, Shape.rowMajor_val_two]; show q.val = 0 * 11008 + q.val; omega),
    shapeCast_apply (RS1 m ρ c) shapeCasts_S11008x1_S1x11008 (ix2 (0 : Fin 1) q) (ix2 q (0 : Fin 1)) (by
      rw [Shape.rowMajor_val_two, Shape.rowMajor_val_two]; show q.val * 1 + 0 = 0 * 11008 + q.val; omega)]
  show (X2 m c (ix1 q) - (mulf (SC m c) (ZX m c)) ix0 * W12 m ρ c (Proc.devRef .tc main_v28_1) (ix2 q (0 : Fin 1))) + _ = _
  rw [s1_apply]
  rfl

/-- ONE ENTRY of the product region's output. -/
theorem out_apply (i : S8192x11008.Idx) :
    W14 m ρ c (Proc.devRef .tc main_v46) i
      = (SX m c ix0 * SW m c ix0) * (∑ k : Fin 4096, quant (SX m c ix0) (ZX m c ix0) (X8 m c (Region2.lrow i k)) * quant (SW m c ix0) (ZW m c ix0) (X1 m c (Region2.rrow i k)))
        + (-(SX m c ix0 * SW m c ix0) * ZW m c ix0) * (∑ k : Fin 4096, quant (SX m c ix0) (ZX m c ix0) (X8 m c (Region2.lrow i k)))
        + ((X2 m c (ix1 (⟨(i 1).val, (i 1).isLt⟩ : Fin 11008)) - ((SX m c ix0 * SW m c ix0) * ZX m c ix0) * ∑ k : Fin 4096, quant (SW m c ix0) (ZW m c ix0) (X1 m c (Region2.rrow i k)))
          + (((SX m c ix0 * SW m c ix0) * Ideal.ofBits .f32 0x45800000#32) * ZX m c ix0) * ZW m c ix0) := by
  rw [out_arr]
  unfold Region2.outArr
  rw [prod_scale, prod_qx, prod_qw, prod_rowCorr, prod_colCorr, cast11]
  rw [q0_fun, q1_fun]
  rw [show Region2.lcol i = ix2 (⟨(i 0).val, (i 0).isLt⟩ : Fin 8192) (0 : Fin 1) from rfl,
    show Region2.rcol i = ix2 (0 : Fin 1) (⟨(i 1).val, (i 1).isLt⟩ : Fin 11008) from rfl, rowCorr_apply, colCorr_apply]
  rfl

end Cert.Bridge.Host

end
-- ==== Proof.Consts.lean ====
/-
  The float words the two programs spell, as the extended reals they denote: the clamp's bounds 127 and -128, the
  divisor 255 of the range, the floor 1e-8 of the scale (a positive real; only that it is a real matters here), the
  inner dimension 4096, zero, and the two infinities the minimum and the maximum over a tensor start from.
-/
import Idealize.ShloMosaic.PureOps.Ideal

noncomputable section

namespace Cert.Bridge.Consts

open Idealize.ShloMosaic

theorem ofBits_127 : Ideal.ofBits .f32 0x42FE0000#32 = ((127 : ℝ) : EReal) := by
  simp [Ideal.ofBits, Ideal.ieee, -EReal.coe_mul]; norm_num

theorem ofBits_neg128 : Ideal.ofBits .f32 0xC3000000#32 = ((-128 : ℝ) : EReal) := by
  simp [Ideal.ofBits, Ideal.ieee, -EReal.coe_mul]; norm_num

theorem ofBits_255 : Ideal.ofBits .f32 0x437F0000#32 = ((255 : ℝ) : EReal) := by
  simp [Ideal.ofBits, Ideal.ieee, -EReal.coe_mul]; norm_num

theorem ofBits_4096 : Ideal.ofBits .f32 0x45800000#32 = ((4096 : ℝ) : EReal) := by
  simp [Ideal.ofBits, Ideal.ieee, -EReal.coe_mul]; norm_num

theorem ofBits_zero : Ideal.ofBits .f32 0x00000000#32 = 0 := by
  simp [Ideal.ofBits, Ideal.ieee]

theorem ofBits_posInf : Ideal.ofBits .f32 0x7F800000#32 = ⊤ := by
  simp [Ideal.ofBits, Ideal.ieee]

theorem ofBits_negInf : Ideal.ofBits .f32 0xFF800000#32 = ⊥ := by
  simp [Ideal.ofBits, Ideal.ieee]

/-- The scale's floor is a real number. -/
theorem ofBits_floor_real : ∃ r : ℝ, Ideal.ofBits .f32 0x322BCC77#32 = (r : EReal) := by
  simp [Ideal.ofBits, Ideal.ieee, -EReal.coe_mul]

end Cert.Bridge.Consts

end
-- ==== Proof.Algebra.lean ====
/-
  The arithmetic that joins the two programs, on the extended reals.

  With real numbers s (the product of the two scales), zx, zw (the zero points), c (the inner dimension), b (a bias entry),
  A = Σₖ qx·qw, RS = Σₖ qx, CS = Σₖ qw, the kernel's
      s·A + (−s·zw)·RS + ((b − (s·zx)·CS) + ((s·c)·zx)·zw)
  and the reference's
      s·(((A − zx·CS) − zw·RS) + (c·zx)·zw) + b
  are one number: distributivity, which on the extended reals needs every term finite. Finite they are: a clamped
  value lies in [-128, 127] whatever was clamped, a finite sum of reals is real, and a scale
  max((max(hi, 0) − min(lo, 0)) / 255, floor) is real as soon as hi ≠ +∞ and lo ≠ −∞.
-/
import proofs.«111236_j59219009077631_2_alg».proof.Proof.Payload
import proofs.«111236_j59219009077631_2_alg».proof.Proof.Consts

noncomputable section

namespace Cert.Bridge

open Idealize.ShloMosaic

/-- An extended real between two reals is a real. -/
theorem real_of_between {a b : ℝ} {y : EReal} (h1 : (a : EReal) ≤ y) (h2 : y ≤ (b : EReal)) : ∃ r : ℝ, y = (r : EReal) := by
  have hb : y ≠ ⊥ := fun h => by rw [h] at h1; exact (EReal.coe_ne_bot a) (le_bot_iff.mp h1)
  have ht : y ≠ ⊤ := fun h => by rw [h] at h2; exact (EReal.coe_ne_top b) (top_le_iff.mp h2)
  exact ⟨y.toReal, (EReal.coe_toReal ht hb).symm⟩

/-- Whatever is clamped to [-128, 127] is a real. -/
theorem clamp_real (y : EReal) :
    ∃ r : ℝ, min (Ideal.ofBits .f32 0x42FE0000#32) (max (Ideal.ofBits .f32 0xC3000000#32) y) = (r : EReal) := by
  rw [Consts.ofBits_127, Consts.ofBits_neg128]
  refine real_of_between (a := -128) (b := 127) (le_min ?_ (le_max_left _ _)) (min_le_left _ _)
  exact_mod_cast (by norm_num : (-128 : ℝ) ≤ 127)

/-- A quantized entry is a real, whatever the scale, the zero point and the entry. -/
theorem quant_real (s z x : EReal) : ∃ r : ℝ, quant s z x = (r : EReal) := clamp_real _

/-- The coercion of a finite sum of reals. -/
theorem coe_sum {ι : Type} (s : Finset ι) (g : ι → ℝ) : ((∑ i ∈ s, g i : ℝ) : EReal) = ∑ i ∈ s, (g i : EReal) := by
  classical
  refine Finset.induction_on s ?_ ?_
  · simp
  · intro a s ha ih
    rw [Finset.sum_insert ha, Finset.sum_insert ha, EReal.coe_add, ih]

/-- A finite sum of reals is a real. -/
theorem sum_real {ι : Type} (s : Finset ι) (f : ι → EReal) (h : ∀ i, ∃ r : ℝ, f i = (r : EReal)) :
    ∃ r : ℝ, ∑ i ∈ s, f i = (r : EReal) := by
  choose g hg using h
  exact ⟨∑ i ∈ s, g i, by rw [coe_sum]; exact Finset.sum_congr rfl fun i _ => hg i⟩

/-- A product of reals is a real. -/
theorem mul_real {x y : EReal} (hx : ∃ r : ℝ, x = (r : EReal)) (hy : ∃ r : ℝ, y = (r : EReal)) : ∃ r : ℝ, x * y = (r : EReal) := by
  obtain ⟨a, rfl⟩ := hx; obtain ⟨b, rfl⟩ := hy; exact ⟨a * b, (EReal.coe_mul a b).symm⟩

/-- The scale of a tensor whose maximum is not +∞ and whose minimum is not −∞ is a real. -/
theorem scale_real {lo hi : EReal} (h1 : lo ≠ ⊥) (h2 : hi ≠ ⊤) :
    ∃ r : ℝ, max (Ideal.div (max hi (Ideal.ofBits .f32 0x00000000#32) - min lo (Ideal.ofBits .f32 0x00000000#32))
      (Ideal.ofBits .f32 0x437F0000#32)) (Ideal.ofBits .f32 0x322BCC77#32) = (r : EReal) := by
  obtain ⟨e, he⟩ := Consts.ofBits_floor_real
  rw [Consts.ofBits_zero, Consts.ofBits_255, he, Ideal.div_coe (by norm_num : (255 : ℝ) ≠ 0)]
  obtain ⟨a, ha⟩ : ∃ a : ℝ, max hi 0 = (a : EReal) := by
    have hb : max hi 0 ≠ ⊥ := fun h => by
      have : (0 : EReal) ≤ ⊥ := h ▸ le_max_right hi 0
      exact EReal.zero_ne_bot (le_bot_iff.mp this)
    have ht : max hi 0 ≠ ⊤ := fun h => by
      rcases max_choice hi 0 with h' | h' <;> rw [h'] at h
      · exact h2 h
      · exact EReal.zero_ne_top h
    exact ⟨_, (EReal.coe_toReal ht hb).symm⟩
  obtain ⟨b, hb⟩ : ∃ b : ℝ, min lo 0 = (b : EReal) := by
    have ht : min lo 0 ≠ ⊤ := fun h => by
      have : (⊤ : EReal) ≤ 0 := h ▸ min_le_right lo 0
      exact EReal.zero_ne_top (top_le_iff.mp this)
    have hb : min lo 0 ≠ ⊥ := fun h => by
      rcases min_choice lo 0 with h' | h' <;> rw [h'] at h
      · exact h1 h
      · exact EReal.zero_ne_bot h
    exact ⟨_, (EReal.coe_toReal ht hb).symm⟩
  rw [ha, hb, ← EReal.coe_sub, ← EReal.coe_mul]
  rcases max_choice (((a - b) * (1 / 255) : ℝ) : EReal) (e : EReal) with h | h
  · exact ⟨_, h⟩
  · exact ⟨_, h⟩

/-- THE LAW: the kernel's folded corrections and the reference's bracket are one number when every term is real. -/
theorem entry_eq {s zx zw c b A RS CS : EReal} (hs : ∃ r : ℝ, s = (r : EReal)) (hzx : ∃ r : ℝ, zx = (r : EReal))
    (hzw : ∃ r : ℝ, zw = (r : EReal)) (hc : ∃ r : ℝ, c = (r : EReal)) (hb : ∃ r : ℝ, b = (r : EReal))
    (hA : ∃ r : ℝ, A = (r : EReal)) (hRS : ∃ r : ℝ, RS = (r : EReal)) (hCS : ∃ r : ℝ, CS = (r : EReal)) :
    s * A + (-s * zw) * RS + ((b - (s * zx) * CS) + ((s * c) * zx) * zw)
      = s * (((A - zx * (0 + CS)) - zw * (0 + RS)) + (c * zx) * zw) + b := by
  obtain ⟨s, rfl⟩ := hs; obtain ⟨zx, rfl⟩ := hzx; obtain ⟨zw, rfl⟩ := hzw; obtain ⟨c, rfl⟩ := hc
  obtain ⟨b, rfl⟩ := hb; obtain ⟨A, rfl⟩ := hA; obtain ⟨RS, rfl⟩ := hRS; obtain ⟨CS, rfl⟩ := hCS
  rw [zero_add, zero_add]
  norm_cast
  ring

end Cert.Bridge

end
-- ==== Proof.Finite.lean ====
/-
  Finiteness. The precondition says every entry of the three arguments has absolute value below +∞, so every entry is a
  real number. A minimum over a tensor of reals, started from +∞, is not −∞, and a maximum started from −∞ is not +∞;
  hence both scales are positive reals. The zero points are clamped to [-128, 127] and are reals whatever was clamped.
-/
import proofs.«111236_j59219009077631_2_alg».proof.Proof.Gen.ReferenceIdeal.Read
import proofs.«111236_j59219009077631_2_alg».proof.Proof.Gen.Pre_finite_inputs
import proofs.«111236_j59219009077631_2_alg».proof.Proof.Algebra
import Idealize.ShloMosaic.Lib.ReduceAll

noncomputable section

namespace Cert.Bridge.Finite

open Idealize.ShloMosaic Idealize.ShloMosaic.ValueIdx Cert.ReferenceIdeal Cert.ReferenceIdeal.Read Cert.Bridge

instance : Subsingleton (⟨0, ![]⟩ : Shape).Idx := ⟨fun _ _ => funext fun d => d.elim0⟩

/-- |x| < +∞, as the comparison prints it, read back: x is a real. -/
theorem real_of_abs_lt_inf (x : EReal) (h : Ideal.cmp .olt (max x (-x)) (Ideal.ofBits .f32 0x7F800000#32) = 1#1) :
    ∃ r : ℝ, x = (r : EReal) := by
  rw [Consts.ofBits_posInf] at h
  have hlt : max x (-x) < ⊤ := by
    by_contra hn
    have : Ideal.cmp .olt (max x (-x)) ⊤ = 0#1 := by simp [Ideal.cmp, hn]
    rw [this] at h; exact absurd h (by decide)
  have h1 : x ≠ ⊤ := (lt_of_le_of_lt (le_max_left _ _) hlt).ne
  have h2 : x ≠ ⊥ := fun hb => (lt_of_le_of_lt (le_max_right x (-x)) hlt).ne (by rw [hb]; exact EReal.neg_bot)
  exact ⟨x.toReal, (EReal.coe_toReal h1 h2).symm⟩

/-- The precondition, read back: every entry of every argument is a real. -/
theorem reals_of_pre [Cert.Pre_finite_inputs.Facts] (a0 : FVec Ideal Cert.Pre_finite_inputs.S4x2048x4096 .f32)
    (a1 : FVec Ideal Cert.Pre_finite_inputs.S11008x4096 .f32) (a2 : FVec Ideal Cert.Pre_finite_inputs.S11008 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ix0
  dsimp only [Cert.Pre_finite_inputs.fn] at h0
  obtain ⟨h01, h2⟩ := IntOp.andi_eq_one.1 h0
  obtain ⟨h0', h1⟩ := IntOp.andi_eq_one.1 h01
  refine ⟨fun i => ?_, fun i => ?_, fun i => ?_⟩
  · exact real_of_abs_lt_inf _ (Host.reduce_andi_all _ _ _ _ _ h0' i)
  · exact real_of_abs_lt_inf _ (Host.reduce_andi_all _ _ _ _ _ h1 i)
  · exact real_of_abs_lt_inf _ (Host.reduce_andi_all _ _ _ _ _ h2 i)

/-- A running maximum that starts below +∞ and meets nothing at +∞ stays below +∞. -/
theorem foldl_max_ne_top {ι : Type} (x : ι → EReal) :
    ∀ (l : List ι) (init : EReal), init ≠ ⊤ → (∀ n ∈ l, x n ≠ ⊤) → l.foldl (fun r n => max r (x n)) init ≠ ⊤
  | [], _, h, _ => h
  | a :: l, init, h, hx => foldl_max_ne_top x l _ (fun e => by
      have e' : max init (x a) = ⊤ := e
      rcases max_choice init (x a) with h' | h' <;> rw [h'] at e'
      · exact h e'
      · exact hx a List.mem_cons_self e') (fun n hn => hx n (List.mem_cons_of_mem _ hn))

/-- A running minimum that starts above −∞ and meets nothing at −∞ stays above −∞. -/
theorem foldl_min_ne_bot {ι : Type} (x : ι → EReal) :
    ∀ (l : List ι) (init : EReal), init ≠ ⊥ → (∀ n ∈ l, x n ≠ ⊥) → l.foldl (fun r n => min r (x n)) init ≠ ⊥
  | [], _, h, _ => h
  | a :: l, init, h, hx => foldl_min_ne_bot x l _ (fun e => by
      have e' : min init (x a) = ⊥ := e
      rcases min_choice init (x a) with h' | h' <;> rw [h'] at e'
      · exact h e'
      · exact hx a List.mem_cons_self e') (fun n hn => hx n (List.mem_cons_of_mem _ hn))

/-- The maximum over a tensor with no entry at +∞, from a start below +∞, is not +∞. -/
theorem reduce_max_ne_top {s t u : Shape} {axes : List (Fin s.rank)} (x : s.Idx → EReal) (init : u.Idx → EReal)
    (h : s.ReducesTo axes t) (hu : 0 < u.numel) (j : t.Idx) (hi : init (Shape.Idx.first hu) ≠ ⊤) (hx : ∀ i, x i ≠ ⊤) :
    Host.reduce (FloatOps.maximumf (F := Ideal) (φ := .f32)) x init h hu j ≠ ⊤ := by
  unfold Host.reduce
  exact foldl_max_ne_top (fun n => x (s.rowMajor.symm n)) _ _ hi (fun n _ => hx _)

/-- The minimum over a tensor with no entry at −∞, from a start above −∞, is not −∞. -/
theorem reduce_min_ne_bot {s t u : Shape} {axes : List (Fin s.rank)} (x : s.Idx → EReal) (init : u.Idx → EReal)
    (h : s.ReducesTo axes t) (hu : 0 < u.numel) (j : t.Idx) (hi : init (Shape.Idx.first hu) ≠ ⊥) (hx : ∀ i, x i ≠ ⊥) :
    Host.reduce (FloatOps.minimumf (F := Ideal) (φ := .f32)) x init h hu j ≠ ⊥ := by
  unfold Host.reduce
  exact foldl_min_ne_bot (fun n => x (s.rowMajor.symm n)) _ _ hi (fun n _ => hx _)

theorem posInf_ne_bot : Ideal.ofBits .f32 0x7F800000#32 ≠ ⊥ := by rw [Consts.ofBits_posInf]; exact top_ne_bot
theorem negInf_ne_top : Ideal.ofBits .f32 0xFF800000#32 ≠ ⊤ := by rw [Consts.ofBits_negInf]; exact bot_ne_top

/-- A scale, with the tensor's minimum and maximum as given numbers. -/
theorem scale_form_real (lo hi : EReal) (h1 : lo ≠ ⊥) (h2 : hi ≠ ⊤) :
    ∃ r : ℝ, FloatOps.maximumf (F := Ideal) (φ := .f32)
      (FloatOps.hostDivf (FloatOps.subf (FloatOps.maximumf hi (FloatOps.ofBits .f32 0x00000000#32))
        (FloatOps.minimumf lo (FloatOps.ofBits .f32 0x00000000#32))) (FloatOps.ofBits .f32 0x437F0000#32))
      (FloatOps.ofBits .f32 0x322BCC77#32) = (r : EReal) :=
  scale_real h1 h2

/-- The activations' minimum is not −∞. -/
theorem minX_ne_bot (x0 : FVec Ideal S4x2048x4096 .f32) (hx : ∀ i, ∃ r : ℝ, x0 i = (r : EReal)) :
    val_main_v1 (F := Ideal) x0 ix0 ≠ ⊥ := by
  unfold val_main_v1
  refine reduce_min_ne_bot _ _ _ _ _ posInf_ne_bot fun i => ?_
  rw [val_main_v0_apply]; obtain ⟨r, hr⟩ := hx (idx_main_v0 i); rw [hr]; exact EReal.coe_ne_bot r

/-- The activations' maximum is not +∞. -/
theorem maxX_ne_top (x0 : FVec Ideal S4x2048x4096 .f32) (hx : ∀ i, ∃ r : ℝ, x0 i = (r : EReal)) :
    val_main_v3 (F := Ideal) x0 ix0 ≠ ⊤ := by
  unfold val_main_v3
  refine reduce_max_ne_top _ _ _ _ _ negInf_ne_top fun i => ?_
  rw [val_main_v0_apply]; obtain ⟨r, hr⟩ := hx (idx_main_v0 i); rw [hr]; exact EReal.coe_ne_top r

/-- The weights' minimum is not −∞. -/
theorem minW_ne_bot (x1 : FVec Ideal S11008x4096 .f32) (hx : ∀ i, ∃ r : ℝ, x1 i = (r : EReal)) :
    val_main_v18 (F := Ideal) x1 ix0 ≠ ⊥ := by
  unfold val_main_v18
  refine reduce_min_ne_bot _ _ _ _ _ posInf_ne_bot fun i => ?_
  obtain ⟨r, hr⟩ := hx i; rw [hr]; exact EReal.coe_ne_bot r

/-- The weights' maximum is not +∞. -/
theorem maxW_ne_top (x1 : FVec Ideal S11008x4096 .f32) (hx : ∀ i, ∃ r : ℝ, x1 i = (r : EReal)) :
    val_main_v20 (F := Ideal) x1 ix0 ≠ ⊤ := by
  unfold val_main_v20
  refine reduce_max_ne_top _ _ _ _ _ negInf_ne_top fun i => ?_
  obtain ⟨r, hr⟩ := hx i; rw [hr]; exact EReal.coe_ne_top r

/-- The activations' scale is a real. -/
theorem scaleX_real (x0 : FVec Ideal S4x2048x4096 .f32) (hx : ∀ i, ∃ r : ℝ, x0 i = (r : EReal)) :
    ∃ r : ℝ, val_main_v7 (F := Ideal) x0 ix0 = (r : EReal) := by
  have h1 := minX_ne_bot x0 hx
  have h2 := maxX_ne_top x0 hx
  rw [val_main_v7_apply, val_main_v6_apply, val_main_v5_apply, val_main_v4_apply, val_main_v2_apply, val_main_cst_4_apply,
    val_main_cst_3_apply, val_main_cst_2_apply, val_main_cst_0_apply]
  generalize val_main_v1 (F := Ideal) x0 ix0 = lo at h1 ⊢
  generalize val_main_v3 (F := Ideal) x0 ix0 = hi at h2 ⊢
  exact scale_form_real lo hi h1 h2

/-- The weights' scale is a real. -/
theorem scaleW_real (x1 : FVec Ideal S11008x4096 .f32) (hx : ∀ i, ∃ r : ℝ, x1 i = (r : EReal)) :
    ∃ r : ℝ, val_main_v24 (F := Ideal) x1 ix0 = (r : EReal) := by
  have h1 := minW_ne_bot x1 hx
  have h2 := maxW_ne_top x1 hx
  rw [val_main_v24_apply, val_main_v23_apply, val_main_v22_apply, val_main_v21_apply, val_main_v19_apply, val_main_cst_15_apply,
    val_main_cst_14_apply, val_main_cst_13_apply, val_main_cst_11_apply]
  generalize val_main_v18 (F := Ideal) x1 ix0 = lo at h1 ⊢
  generalize val_main_v20 (F := Ideal) x1 ix0 = hi at h2 ⊢
  exact scale_form_real lo hi h1 h2

/-- The activations' zero point is a real. -/
theorem zpX_real (x0 : FVec Ideal S4x2048x4096 .f32) : ∃ r : ℝ, val_main_v11 (F := Ideal) x0 ix0 = (r : EReal) := by
  rw [val_main_v11_apply, val_main_call1_v2_apply, val_main_cst_7_apply, val_main_call1_v1_apply, val_main_call1_v0_apply, val_main_cst_6_apply]
  generalize val_main_v10 (F := Ideal) x0 ix0 = y
  exact clamp_real y

/-- The weights' zero point is a real. -/
theorem zpW_real (x1 : FVec Ideal S11008x4096 .f32) : ∃ r : ℝ, val_main_v28 (F := Ideal) x1 ix0 = (r : EReal) := by
  rw [val_main_v28_apply, val_main_call5_v2_apply, val_main_cst_18_apply, val_main_call5_v1_apply, val_main_call5_v0_apply, val_main_cst_17_apply]
  generalize val_main_v27 (F := Ideal) x1 ix0 = y
  exact clamp_real y

end Cert.Bridge.Finite

end
-- ==== Proof.Bridge.lean ====
/-
  The bridge: one entry of the kernel program's output array is the same entry of the reference's result.
  Both are built from the same eight numbers — the product s of the scales, the zero points zx and zw, the inner dimension,
  a bias entry, A = Σₖ qx·qw, RS = Σₖ qx and CS = Σₖ qw over the same quantized entries — the kernel with the corrections
  folded into a row term and a column term, the reference inside one bracket; all eight are reals, so distributivity joins them.
-/
import proofs.«111236_j59219009077631_2_alg».proof.Proof.KernelEntry
import proofs.«111236_j59219009077631_2_alg».proof.Proof.Finite

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.ReferenceIdeal.Read Cert.Bridge.Host

/-- The reference's quantized activations, entry by entry. -/
theorem ref_qx (x0 : FVec Ideal S4x2048x4096 .f32) (j : S8192x4096.Idx) :
    val_main_v17 (F := Ideal) x0 j = quant (val_main_v7 (F := Ideal) x0 ix0) (val_main_v11 (F := Ideal) x0 ix0) (val_main_v0 (F := Ideal) x0 j) := by
  rw [val_main_v17_apply, val_main_call3_v4_apply, val_main_call3_v2_apply, val_main_call3_v1_apply, val_main_v16_apply,
    val_main_v14_apply, val_main_v13_apply, val_main_v12_apply, val_main_v15_apply]
  rfl

/-- The reference's quantized weights, entry by entry. -/
theorem ref_qw (x1 : FVec Ideal S11008x4096 .f32) (j : S11008x4096.Idx) :
    val_main_v34 (F := Ideal) x1 j = quant (val_main_v24 (F := Ideal) x1 ix0) (val_main_v28 (F := Ideal) x1 ix0) (x1 j) := by
  rw [val_main_v34_apply, val_main_call7_v4_apply, val_main_call7_v2_apply, val_main_call7_v1_apply, val_main_v33_apply,
    val_main_v31_apply, val_main_v30_apply, val_main_v29_apply, val_main_v32_apply]
  rfl

/-! The reference's index maps name the same rows and columns as the kernel's. -/

theorem idxL (i : S8192x11008.Idx) (k : Fin 4096) : lidx_main_v35 i k = Region2.lrow i k :=
  funext fun a => Fin.ext (by match a with | ⟨0, _⟩ => rfl | ⟨1, _⟩ => rfl)
theorem idxR (i : S8192x11008.Idx) (k : Fin 4096) : ridx_main_v35 i k = Region2.rrow i k :=
  funext fun a => Fin.ext (by match a with | ⟨0, _⟩ => rfl | ⟨1, _⟩ => rfl)
theorem idxCS (i : S8192x11008.Idx) (k : Fin 4096) : idx_main_v38 (idx_main_v40 (idx_main_v43 i)) k = Region2.rrow i k :=
  funext fun a => Fin.ext (by match a with | ⟨0, _⟩ => rfl | ⟨1, _⟩ => rfl)
theorem idxRS (i : S8192x11008.Idx) (k : Fin 4096) : idx_main_v36 (idx_main_v37 (idx_main_v47 i)) k = Region2.lrow i k :=
  funext fun a => Fin.ext (by match a with | ⟨0, _⟩ => rfl | ⟨1, _⟩ => rfl)
theorem idxB (i : S8192x11008.Idx) : idx_main_v55 (idx_main_v56 i) = ix1 (⟨(i 1).val, (i 1).isLt⟩ : Fin 11008) :=
  funext fun a => Fin.ext (by match a with | ⟨0, _⟩ => rfl)

/-- THE LAW at the two programs' spellings: the kernel's folded form is the reference's bracket. -/
theorem bridge_core (sx sw zx zw C b : EReal) (qx qw : Fin 4096 → EReal)
    (hsx : ∃ r : ℝ, sx = (r : EReal)) (hsw : ∃ r : ℝ, sw = (r : EReal)) (hzx : ∃ r : ℝ, zx = (r : EReal)) (hzw : ∃ r : ℝ, zw = (r : EReal))
    (hC : ∃ r : ℝ, C = (r : EReal)) (hb : ∃ r : ℝ, b = (r : EReal)) (hqx : ∀ k, ∃ r : ℝ, qx k = (r : EReal)) (hqw : ∀ k, ∃ r : ℝ, qw k = (r : EReal)) :
    (sx * sw) * (∑ k : Fin 4096, qx k * qw k) + (-(sx * sw) * zw) * (∑ k : Fin 4096, qx k)
        + ((b - ((sx * sw) * zx) * ∑ k : Fin 4096, qw k) + (((sx * sw) * C) * zx) * zw)
      = FloatOps.addf (F := Ideal) (φ := .f32) (FloatOps.mulf (FloatOps.mulf sx sw)
          (FloatOps.addf (FloatOps.subf (FloatOps.subf (∑ k : Fin 4096, qx k * qw k)
              (FloatOps.mulf zx (FloatOps.ofBits .f32 0x00000000#32 + ∑ k : Fin 4096, qw k)))
            (FloatOps.mulf zw (FloatOps.ofBits .f32 0x00000000#32 + ∑ k : Fin 4096, qx k)))
          (FloatOps.mulf (FloatOps.mulf C zx) zw))) b := by
  show _ = (sx * sw) * ((((∑ k : Fin 4096, qx k * qw k) - zx * (Ideal.ofBits .f32 0x00000000#32 + ∑ k : Fin 4096, qw k))
      - zw * (Ideal.ofBits .f32 0x00000000#32 + ∑ k : Fin 4096, qx k)) + (C * zx) * zw) + b
  rw [Consts.ofBits_zero]
  exact entry_eq (mul_real hsx hsw) hzx hzw hC hb (sum_real _ _ fun k => mul_real (hqx k) (hqw k)) (sum_real _ _ hqx) (sum_real _ _ hqw)

variable (m : (ℓ : Loc nD τ sig) → Buf (Elt Ideal) ℓ) (ρ : Dev nD → PrngReg) (c : Dev nD)

/-- ONE ENTRY: the kernel's output array and the reference's result before its last reshape agree. -/
theorem entry_bridge (hx0 : ∀ i, ∃ r : ℝ, X0 m c i = (r : EReal)) (hx1 : ∀ i, ∃ r : ℝ, X1 m c i = (r : EReal))
    (hx2 : ∀ i, ∃ r : ℝ, X2 m c i = (r : EReal)) (i : S8192x11008.Idx) :
    W14 m ρ c (Proc.devRef .tc main_v46) i = val_main_v57 (F := Ideal) (X0 m c) (X1 m c) (X2 m c) i := by
  have hsx := Finite.scaleX_real (X0 m c) hx0
  have hsw := Finite.scaleW_real (X1 m c) hx1
  have hzx := Finite.zpX_real (X0 m c)
  have hzw := Finite.zpW_real (X1 m c)
  rw [out_apply,
    val_main_v57_apply, val_main_v54_apply, val_main_v53_apply, val_main_v39_apply, val_main_v52_apply, val_main_v48_apply,
    val_main_v44_apply, val_main_v35_apply, val_main_v43_apply, val_main_v42_apply, val_main_v41_apply, val_main_v40_apply,
    val_main_v38_apply, val_main_v47_apply, val_main_v46_apply, val_main_v45_apply, val_main_v37_apply, val_main_v36_apply,
    val_main_v51_apply, val_main_v50_apply, val_main_v49_apply, val_main_cst_23_apply, val_main_v56_apply, val_main_v55_apply,
    val_main_cst_21_apply, val_main_cst_22_apply]
  simp only [ref_qx, ref_qw, idxL, idxR, idxCS, idxRS, idxB]
  rw [eq_ix0 (idx_main_v53 i), eq_ix0 (idx_main_v41 (idx_main_v43 i)), eq_ix0 (idx_main_v45 (idx_main_v47 i)), eq_ix0 (idx_main_v51 i)]
  dsimp only [SX, SW, ZX, ZW, X8]
  generalize val_main_v7 (F := Ideal) (X0 m c) ix0 = sx at hsx ⊢
  generalize val_main_v24 (F := Ideal) (X1 m c) ix0 = sw at hsw ⊢
  generalize val_main_v11 (F := Ideal) (X0 m c) ix0 = zx at hzx ⊢
  generalize val_main_v28 (F := Ideal) (X1 m c) ix0 = zw at hzw ⊢
  exact bridge_core sx sw zx zw (Ideal.ofBits .f32 0x45800000#32) (X2 m c (ix1 (⟨(i 1).val, (i 1).isLt⟩ : Fin 11008)))
    (fun k => quant sx zx (val_main_v0 (F := Ideal) (X0 m c) (Region2.lrow i k))) (fun k => quant sw zw (X1 m c (Region2.rrow i k)))
    hsx hsw hzx hzw ⟨4096, Consts.ofBits_4096⟩ (hx2 _) (fun k => quant_real _ _ _) (fun k => quant_real _ _ _)

end Cert.Bridge

end
-- ==== Proof.lean ====
/-
  The kernel quantizes the activations and the weights to [-128, 127] with one scale and one zero point each, multiplies
  the quantized matrices, and undoes the quantization with the zero-point corrections folded into one term per row and one
  per column: out(i, j) = s·A(i, j) + (−s·zw)·RS(i) + ((bias(j) − (s·zx)·CS(j)) + ((s·4096)·zx)·zw), where s is the product of
  the scales, A the product of the quantized matrices, RS and CS their row sums. The reference computes
  s·(((A(i, j) − zx·CS(j)) − zw·RS(i)) + (4096·zx)·zw) + bias(j) from the same quantized matrices. Read on the extended reals
  the two agree by distributivity once every term is finite, which the precondition (finite inputs) gives: the scales are
  then positive reals, and zero points, quantized entries and their finite sums are reals whatever the inputs.

  The modules: Payload, Product (the three bodies entry by entry); Region0, Region1, Region2 (each region's output arrays
  as whole-array functions); KernelRun (the run, with the result buffer named); KernelHost, KernelEntry (the host
  operations around the regions, and one entry of the result); Consts, Algebra, Finite (the arithmetic and finiteness);
  Bridge (one entry of the kernel's result is the reference's).
-/
import proofs.«111236_j59219009077631_2_alg».proof.Defs
import proofs.«111236_j59219009077631_2_alg».proof.Proof.Gen.Kernel
import proofs.«111236_j59219009077631_2_alg».proof.Proof.Gen.Kernel.Skeleton
import proofs.«111236_j59219009077631_2_alg».proof.Proof.Gen.Kernel.Launch
import proofs.«111236_j59219009077631_2_alg».proof.Proof.Gen.Kernel.Points
import proofs.«111236_j59219009077631_2_alg».proof.Proof.Gen.Kernel.Frame
import proofs.«111236_j59219009077631_2_alg».proof.Proof.Gen.KernelIdeal
import proofs.«111236_j59219009077631_2_alg».proof.Proof.Gen.KernelIdeal.Skeleton
import proofs.«111236_j59219009077631_2_alg».proof.Proof.Gen.KernelIdeal.Launch
import proofs.«111236_j59219009077631_2_alg».proof.Proof.Gen.KernelIdeal.Points
import proofs.«111236_j59219009077631_2_alg».proof.Proof.Gen.KernelIdeal.Frame
import proofs.«111236_j59219009077631_2_alg».proof.Proof.Gen.ReferenceIdeal
import proofs.«111236_j59219009077631_2_alg».proof.Proof.Gen.Pre_finite_inputs
import proofs.«111236_j59219009077631_2_alg».proof.Proof.Gen.ReferenceIdeal.Run
import proofs.«111236_j59219009077631_2_alg».proof.Proof.Gen.ReferenceIdeal.Read
import proofs.«111236_j59219009077631_2_alg».proof.Proof.KernelRun
import proofs.«111236_j59219009077631_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Cert.KernelIdeal Cert.KernelIdeal.Gen

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the same reshape of an 8192 × 11008 array; the two arrays agree entry by entry. -/
theorem algebraic : Cert.algebraic_KernelIdeal_ReferenceIdeal := by
  intro m ρ m' ρ' hpre hagree
  refine ⟨fun c => W15 m ρ c (Proc.devRef .tc main_v47), Cert.Bridge.run_result m ρ, ?_⟩
  refine (θ_run Cert.ReferenceIdeal.defs _ _).mono (fun _ h c => ⟨(h c).1.trans ?_, (h c).2⟩)
    (Cert.ReferenceIdeal.Value.run (F := Ideal) m' ρ')
  obtain ⟨hx0, hx1, hx2⟩ := Cert.Bridge.Finite.reals_of_pre _ _ _ (hpre c)
  rw [Cert.ReferenceIdeal.Read.val_main_v58_eq, (hagree c).1, (hagree c).2.1, (hagree c).2.2]
  show _ = W15 m ρ c (Proc.devRef .tc main_v47)
  rw [Cert.Bridge.Host.result_eq]
  unfold Cert.ReferenceIdeal.Read.val_main_v58
  exact congrArg (fun A : S8192x11008.Idx → EReal => shapeCast S4x2048x11008 A shapeCasts_S8192x11008_S4x2048x11008)
    (funext fun i => (Cert.Bridge.entry_bridge m ρ c hx0 hx1 hx2 i).symm)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
